-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x131072 : Shape := ⟨2, ![2, 131072]⟩
abbrev S256x1024 : Shape := ⟨2, ![256, 1024]⟩
abbrev S256 : Shape := ⟨1, ![256]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg5 : FVec F S256 .f32) (main_arg6 : FVec F S256x1024 .f32) (main_arg7 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x512 .f32) (main_arg1 : IVec S2x131072 32) (main_arg2 : FVec F S256x1024 .f32) (main_arg3 : FVec F S256 .f32) (main_arg4 : FVec F S256x512 .f32) (main_arg5 : FVec F S256 .f32) (main_arg6 : FVec F S256x1024 .f32) (main_arg7 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_v13 main_v16
-- ==== Kernel.lean ====
abbrev S8192x512 : Shape := ⟨2, ![8192, 512]⟩
abbrev S2x131072 : Shape := ⟨2, ![2, 131072]⟩
abbrev S256x1024 : Shape := ⟨2, ![256, 1024]⟩
abbrev S256 : Shape := ⟨1, ![256]⟩
abbrev S256x512 : Shape := ⟨2, ![256, 512]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S512x256 : Shape := ⟨2, ![512, 256]⟩
abbrev S1024x256 : Shape := ⟨2, ![1024, 256]⟩
abbrev S256x256 : Shape := ⟨2, ![256, 256]⟩
abbrev S1x256 : Shape := ⟨2, ![1, 256]⟩
abbrev S8192x256 : Shape := ⟨2, ![8192, 256]⟩
abbrev S8192x1 : Shape := ⟨2, ![8192, 1]⟩
abbrev S256x8192 : Shape := ⟨2, ![256, 8192]⟩
abbrev S256x1 : Shape := ⟨2, ![256, 1]⟩

abbrev nBuf : Space → Nat
  | .hbm => 57
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S2x131072, .i32⟩
  | .hbm, ⟨2, _⟩ => ⟨S256x1024, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x1024, .f32⟩
  | .hbm, ⟨7, _⟩ => ⟨S256, .f32⟩
  | .hbm, ⟨8, _⟩ => ⟨S1x131072, .i32⟩
  | .hbm, ⟨9, _⟩ => ⟨S131072, .i32⟩
  | .hbm, ⟨10, _⟩ => ⟨S1x131072, .i32⟩
  | .hbm, ⟨11, _⟩ => ⟨S131072, .i32⟩
  | .hbm, ⟨12, _⟩ => ⟨S_, .f32⟩
  | .hbm, ⟨13, _⟩ => ⟨S8192x8192, .f32⟩
  | .hbm, ⟨14, _⟩ => ⟨S_, .i32⟩
  | .hbm, ⟨15, _⟩ => ⟨S131072, .i32⟩
  | .hbm, ⟨16, _⟩ => ⟨S131072, .i1⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S131072, .i32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S131072x1, .i32⟩
  | .hbm, ⟨30, _⟩ => ⟨S131072x2, .i32⟩
  | .hbm, ⟨31, _⟩ => ⟨S_, .f32⟩
  | .hbm, ⟨32, _⟩ => ⟨S131072, .f32⟩
  | .hbm, ⟨33, _⟩ => ⟨S8192x8192, .f32⟩
  | .hbm, ⟨34, _⟩ => ⟨S8192x8192, .bf16⟩
  | .hbm, ⟨35, _⟩ => ⟨S8192x512, .bf16⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S512x256, .f32⟩
  | .hbm, ⟨40, _⟩ => ⟨S512x256, .f32⟩
  | .hbm, ⟨41, _⟩ => ⟨S1024x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S512x256, .f32⟩
  | .hbm, ⟨48, _⟩ => ⟨S1024x256, .f32⟩
  | .hbm, ⟨49, _⟩ => ⟨S1x256, .f32⟩
  | .hbm, ⟨50, _⟩ => ⟨S8192x256, .f32⟩
  | .hbm, ⟨51, _⟩ => ⟨S8192x256, .bf16⟩
  | .hbm, ⟨52, _⟩ => ⟨S8192x1, .f32⟩
  | .hbm, ⟨53, _⟩ => ⟨S8192x1, .f32⟩
  | .hbm, ⟨54, _⟩ => ⟨S1x256, .f32⟩
  | .hbm, ⟨55, _⟩ => ⟨S1x256, .f32⟩
  | .hbm, ⟨56, _⟩ => ⟨S8192x256, .f32⟩
  | .local _ .vmem, ⟨0, _⟩ => ⟨S8192x512, .bf16⟩
  | .local _ .vmem, ⟨1, _⟩ => ⟨S256x512, .f32⟩
  | .local _ .vmem, ⟨2, _⟩ => ⟨S256x512, .f32⟩
  | .local _ .vmem, ⟨3, _⟩ => ⟨S256x8192, .bf16⟩
  | .local _ .vmem, ⟨4, _⟩ => ⟨S256x8192, .bf16⟩
  | .local _ .vmem, ⟨5, _⟩ => ⟨S1024x256, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S256x256, .bf16⟩
  | .local _ .vmem, ⟨10, _⟩ => ⟨S256x256, .bf16⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S8192x256, .bf16⟩
  | .local _ .vmem, ⟨16, _⟩ => ⟨S256x256, .f32⟩
  | .local _ .vmem, ⟨17, _⟩ => ⟨S256x256, .f32⟩
  | .local _ .vmem, ⟨18, _⟩ => ⟨S256x512, .f32⟩
  | .local _ .vmem, ⟨19, _⟩ => ⟨S256x512, .f32⟩
  | .local _ .vmem, ⟨20, _⟩ => ⟨S256x8192, .bf16⟩
  | .local _ .vmem, ⟨21, _⟩ => ⟨S256x8192, .bf16⟩
  | .local _ .vmem, ⟨22, _⟩ => ⟨S512x256, .f32⟩
  | .local _ .vmem, ⟨23, _⟩ => ⟨S1x256, .f32⟩
  | .local _ .vmem, ⟨24, _⟩ => ⟨S1024x256, .f32⟩
  | .local _ .vmem, ⟨25, _⟩ => ⟨S1x256, .f32⟩
  | .local _ .vmem, ⟨26, _⟩ => ⟨S256x1, .f32⟩
  | .local _ .vmem, ⟨27, _⟩ => ⟨S256x1, .f32⟩
  | .local _ .vmem, ⟨28, _⟩ => ⟨S256x1, .f32⟩
  | .local _ .vmem, ⟨29, _⟩ => ⟨S256x1, .f32⟩
  | .local _ .vmem, ⟨30, _⟩ => ⟨S256x256, .f32⟩
  | .local _ .vmem, ⟨31, _⟩ => ⟨S256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_cst : Ref sig .tc := ⟨.hbm, 12, rfl⟩
abbrev main_call0_v4 : Ref sig .tc := ⟨.hbm, 13, rfl⟩
abbrev main_call0_c : Ref sig .tc := ⟨.hbm, 14, rfl⟩
abbrev main_call0_v5 : Ref sig .tc := ⟨.hbm, 15, rfl⟩
abbrev main_call0_v6 : Ref sig .tc := ⟨.hbm, 16, rfl⟩
abbrev main_call0_c_0 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_c_1 : Ref sig .tc := ⟨.hbm, 21, rfl⟩
abbrev main_call0_v10 : Ref sig .tc := ⟨.hbm, 22, rfl⟩
abbrev main_call0_v11 : Ref sig .tc := ⟨.hbm, 23, rfl⟩
abbrev main_call0_c_2 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_cst_3 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36_0 : Ref sig .tc := ⟨.hbm, 50, rfl⟩
abbrev main_call0_v36_1 : Ref sig .tc := ⟨.hbm, 51, rfl⟩
abbrev main_call0_v36_2 : Ref sig .tc := ⟨.hbm, 52, rfl⟩
abbrev main_call0_v36_3 : Ref sig .tc := ⟨.hbm, 53, rfl⟩
abbrev main_call0_v37 : Ref sig .tc := ⟨.hbm, 54, rfl⟩
abbrev main_call0_v38 : Ref sig .tc := ⟨.hbm, 55, rfl⟩
abbrev main_v0 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x8192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  slices_S256x1024_S256x512_0_0 : S256x1024.Slices ![0, 0] S256x512
  slices_S256x1024_S256x512_0_512 : S256x1024.Slices ![0, 512] S256x512
  transposes_S256x512_S512x256_1_0 : S256x512.Transposes [1, 0] S512x256
  concatenates_S512x256_S512x256_S1024x256_d0 : Shape.Concatenates [S512x256, S512x256] S1024x256 0
  slices_S256x512_S256x256_0_0 : S256x512.Slices ![0, 0] S256x256
  slices_S256x512_S256x256_0_256 : S256x512.Slices ![0, 256] S256x256
  transposes_S256x256_S256x256_1_0 : S256x256.Transposes [1, 0] S256x256
  concatenates_S256x256_S256x256_S512x256_d0 : Shape.Concatenates [S256x256, S256x256] S512x256 0
  transposes_S256x1024_S1024x256_1_0 : S256x1024.Transposes [1, 0] S1024x256
  shapeCasts_S256_S1x256 : S256.ShapeCasts S1x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  shapeCasts_S256_S256x1 : S256.ShapeCasts S256x1
  natLt_1_32 : 1 < 32
  inb_S256x1_S256x1_0_0 : ∀ a, (![0, 0] : Fin 2 → Nat) a + S256x1.size a ≤ S256x1.size a
  h_S256x1 : 0 < S256x1.numel
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  broadcasts_S256x1_S256x512 : S256x1.Broadcasts S256x512
  inb_S256x512_S256x512_0_0 : ∀ a, (![0, 0] : Fin 2 → Nat) a + S256x512.size a ≤ S256x512.size a
  h_S256x512 : 0 < S256x512.numel
  concatenates_S256x512_S256x512_S256x1024_d1 : Shape.Concatenates [S256x512, S256x512] S256x1024 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  broadcasts_S256x1_S256x256 : S256x1.Broadcasts S256x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  shapeCasts_S256x1_S256x1 : S256x1.ShapeCasts S256x1
  shapeCasts_S256x256_S256x256 : S256x256.ShapeCasts S256x256
  concatenates_S256x256_S256x256_S256x512_d1 : Shape.Concatenates [S256x256, S256x256] S256x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  concatenates_S256x512_S256x256_S256x256_S256x1024_d1 : Shape.Concatenates [S256x512, S256x256, S256x256] S256x1024 1
  scatter_S8192x8192_S131072x2_S131072_n_01_01_1_wf : ScatterDims.WF S8192x8192 S131072x2 S131072 [] [0, 1] [0, 1] 1
  dot_S256x8192_S8192x512_S256x512_1_0_0_1_n_n_wf : DotDims.WF S256x8192 S8192x512 S256x512 [1] [0] [0] [1] [] []
  dot_S256x1024_S1024x256_S256x256_1_0_0_1_n_n_wf : DotDims.WF S256x1024 S1024x256 S256x256 [1] [0] [0] [1] [] []
  dot_S256x8192_S8192x256_S256x256_1_0_0_1_n_n_wf : DotDims.WF S256x8192 S8192x256 S256x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .bf16 = 32 ∨ (Rect.block (s := S8192x8192) S256x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S8192x256.size a
  hwx0_5 : ∀ i : grid0.Coords, EltTy.bits .f32 = 32 ∨ (Rect.block (s := S8192x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S8192x256.size a
  hwx0_6 : ∀ i : grid0.Coords, EltTy.bits .bf16 = 32 ∨ (Rect.block (s := S8192x256) S256x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S8192x1.size a
  hwx0_8 : ∀ i : grid0.Coords, EltTy.bits .f32 = 32 ∨ (Rect.block (s := S8192x1) S256x1.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .bf16 = 32 ∨ (Rect.block (s := S8192x256) S8192x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S8192x256.size a
  hwx1_1 : ∀ i : grid1.Coords, EltTy.bits .f32 = 32 ∨ (Rect.block (s := S8192x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S8192x512.size a
  hwx1_2 : ∀ i : grid1.Coords, EltTy.bits .f32 = 32 ∨ (Rect.block (s := S8192x512) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x8192.size a ≤ S8192x8192.size a
  hwx1_3 : ∀ i : grid1.Coords, EltTy.bits .bf16 = 32 ∨ (Rect.block (s := S8192x8192) S256x8192.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S1024x256.size a
  hwx1_6 : ∀ i : grid1.Coords, EltTy.bits .f32 = 32 ∨ (Rect.block (s := S1024x256) S1024x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S8192x1.size a
  hwx1_8 : ∀ i : grid1.Coords, EltTy.bits .f32 = 32 ∨ (Rect.block (s := S8192x1) S256x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S8192x1.size a
  hwx1_9 : ∀ i : grid1.Coords, EltTy.bits .f32 = 32 ∨ (Rect.block (s := S8192x1) S256x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x256.size a ≤ S8192x256.size a
  hwx1_10 : ∀ i : grid1.Coords, EltTy.bits .f32 = 32 ∨ (Rect.block (s := S8192x256) S256x256.size (cc1_transform_10 i) (hinb1_10 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S256x8192_S8192x512_S256x512_1_0_0_1_n_n : DotDims S256x8192 S8192x512 S256x512 where
  lhsContracting := [1]
  rhsContracting := [0]
  lhsNonContracting := [0]
  rhsNonContracting := [1]
  lhsBatch := []
  rhsBatch := []
  wf := dot_S256x8192_S8192x512_S256x512_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_call0_v21) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v35) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v36_0) S256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v36_1) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v36_2) S256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v36_3) S256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_call0_v36_1) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v36_0) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v20) S256x8192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v33) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v37) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v34) S1024x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v38) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v36_2) S256x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_call0_v36_3) S256x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v0) S256x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8192x512 : Shape := ⟨2, ![8192, 512]⟩
abbrev S2x131072 : Shape := ⟨2, ![2, 131072]⟩
abbrev S256x1024 : Shape := ⟨2, ![256, 1024]⟩
abbrev S256 : Shape := ⟨1, ![256]⟩
abbrev S256x512 : Shape := ⟨2, ![256, 512]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S512x256 : Shape := ⟨2, ![512, 256]⟩
abbrev S1024x256 : Shape := ⟨2, ![1024, 256]⟩
abbrev S1x256 : Shape := ⟨2, ![1, 256]⟩
abbrev S8192x256 : Shape := ⟨2, ![8192, 256]⟩
abbrev S256x256 : Shape := ⟨2, ![256, 256]⟩
abbrev S256x8192 : Shape := ⟨2, ![256, 8192]⟩
abbrev S256x1 : Shape := ⟨2, ![256, 1]⟩

abbrev nBuf : Space → Nat
  | .hbm => 53
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S2x131072, .i32⟩
  | .hbm, ⟨2, _⟩ => ⟨S256x1024, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x1024, .f32⟩
  | .hbm, ⟨7, _⟩ => ⟨S256, .f32⟩
  | .hbm, ⟨8, _⟩ => ⟨S1x131072, .i32⟩
  | .hbm, ⟨9, _⟩ => ⟨S131072, .i32⟩
  | .hbm, ⟨10, _⟩ => ⟨S1x131072, .i32⟩
  | .hbm, ⟨11, _⟩ => ⟨S131072, .i32⟩
  | .hbm, ⟨12, _⟩ => ⟨S_, .f32⟩
  | .hbm, ⟨13, _⟩ => ⟨S8192x8192, .f32⟩
  | .hbm, ⟨14, _⟩ => ⟨S_, .i32⟩
  | .hbm, ⟨15, _⟩ => ⟨S131072, .i32⟩
  | .hbm, ⟨16, _⟩ => ⟨S131072, .i1⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S131072, .i32⟩
  | .hbm, ⟨21, _⟩ => ⟨S_, .i32⟩
  | .hbm, ⟨22, _⟩ => ⟨S131072, .i32⟩
  | .hbm, ⟨23, _⟩ => ⟨S131072, .i1⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S131072x1, .i32⟩
  | .hbm, ⟨30, _⟩ => ⟨S131072x2, .i32⟩
  | .hbm, ⟨31, _⟩ => ⟨S_, .f32⟩
  | .hbm, ⟨32, _⟩ => ⟨S131072, .f32⟩
  | .hbm, ⟨33, _⟩ => ⟨S8192x8192, .f32⟩
  | .hbm, ⟨34, _⟩ => ⟨S8192x8192, .bf16⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S512x256, .f32⟩
  | .hbm, ⟨39, _⟩ => ⟨S512x256, .f32⟩
  | .hbm, ⟨40, _⟩ => ⟨S1024x256, .f32⟩
  | .hbm, ⟨41, _⟩ => ⟨S1x256, .f32⟩
  | .hbm, ⟨42, _⟩ => ⟨S8192x256, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S512x256, .f32⟩
  | .hbm, ⟨49, _⟩ => ⟨S1x256, .f32⟩
  | .hbm, ⟨50, _⟩ => ⟨S1024x256, .f32⟩
  | .hbm, ⟨51, _⟩ => ⟨S1x256, .f32⟩
  | .hbm, ⟨52, _⟩ => ⟨S8192x256, .f32⟩
  | .local _ .vmem, ⟨0, _⟩ => ⟨S8192x512, .f32⟩
  | .local _ .vmem, ⟨1, _⟩ => ⟨S256x8192, .bf16⟩
  | .local _ .vmem, ⟨2, _⟩ => ⟨S256x8192, .bf16⟩
  | .local _ .vmem, ⟨3, _⟩ => ⟨S1024x256, .f32⟩
  | .local _ .vmem, ⟨4, _⟩ => ⟨S1x256, .f32⟩
  | .local _ .vmem, ⟨5, _⟩ => ⟨S256x256, .f32⟩
  | .local _ .vmem, ⟨6, _⟩ => ⟨S256x256, .f32⟩
  | .local _ .vmem, ⟨7, _⟩ => ⟨S8192x512, .f32⟩
  | .local _ .vmem, ⟨8, _⟩ => ⟨S8192x256, .f32⟩
  | .local _ .vmem, ⟨9, _⟩ => ⟨S256x8192, .bf16⟩
  | .local _ .vmem, ⟨10, _⟩ => ⟨S256x8192, .bf16⟩
  | .local _ .vmem, ⟨11, _⟩ => ⟨S512x256, .f32⟩
  | .local _ .vmem, ⟨12, _⟩ => ⟨S1x256, .f32⟩
  | .local _ .vmem, ⟨13, _⟩ => ⟨S1024x256, .f32⟩
  | .local _ .vmem, ⟨14, _⟩ => ⟨S1x256, .f32⟩
  | .local _ .vmem, ⟨15, _⟩ => ⟨S256x256, .f32⟩
  | .local _ .vmem, ⟨16, _⟩ => ⟨S256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_cst : Ref sig .tc := ⟨.hbm, 12, rfl⟩
abbrev main_call0_v4 : Ref sig .tc := ⟨.hbm, 13, rfl⟩
abbrev main_call0_c : Ref sig .tc := ⟨.hbm, 14, rfl⟩
abbrev main_call0_v5 : Ref sig .tc := ⟨.hbm, 15, rfl⟩
abbrev main_call0_v6 : Ref sig .tc := ⟨.hbm, 16, rfl⟩
abbrev main_call0_c_0 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_c_1 : Ref sig .tc := ⟨.hbm, 21, rfl⟩
abbrev main_call0_v10 : Ref sig .tc := ⟨.hbm, 22, rfl⟩
abbrev main_call0_v11 : Ref sig .tc := ⟨.hbm, 23, rfl⟩
abbrev main_call0_c_2 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_cst_3 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_call0_v37 : Ref sig .tc := ⟨.hbm, 51, rfl⟩
abbrev main_v0 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v19 : Index := Scalar.indexCast v1
  let c0_7 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v20 : Index := Scalar.indexCast v1
  let c0_7 : Index := 0#32
  ![v20.toNat, 0]
def k1_off2 (i : grid1.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v38 : Index := Scalar.indexCast v1
  let c0_16 : Index := 0#32
  ![v38.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  slices_S256x1024_S256x512_0_0 : S256x1024.Slices ![0, 0] S256x512
  slices_S256x1024_S256x512_0_512 : S256x1024.Slices ![0, 512] S256x512
  transposes_S256x512_S512x256_1_0 : S256x512.Transposes [1, 0] S512x256
  concatenates_S512x256_S512x256_S1024x256_d0 : Shape.Concatenates [S512x256, S512x256] S1024x256 0
  shapeCasts_S256_S1x256 : S256.ShapeCasts S1x256
  slices_S256x512_S256x256_0_0 : S256x512.Slices ![0, 0] S256x256
  slices_S256x512_S256x256_0_256 : S256x512.Slices ![0, 256] S256x256
  transposes_S256x256_S256x256_1_0 : S256x256.Transposes [1, 0] S256x256
  concatenates_S256x256_S256x256_S512x256_d0 : Shape.Concatenates [S256x256, S256x256] S512x256 0
  transposes_S256x1024_S1024x256_1_0 : S256x1024.Transposes [1, 0] S1024x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  shapeCasts_S256_S256x1 : S256.ShapeCasts S256x1
  natLt_1_32 : 1 < 32
  inb_S8192x512_S8192x512_0_0 : ∀ a, (![0, 0] : Fin 2 → Nat) a + S8192x512.size a ≤ S8192x512.size a
  h_S8192x512 : 0 < S8192x512.numel
  broadcasts_S256x1_S256x512 : S256x1.Broadcasts S256x512
  h_S256x512 : 0 < S256x512.numel
  inb_S1024x256_S512x256_0_0 : ∀ a, (![0, 0] : Fin 2 → Nat) a + S512x256.size a ≤ S1024x256.size a
  h_S512x256 : 0 < S512x256.numel
  shapeCasts_S512x256_S512x256 : S512x256.ShapeCasts S512x256
  inb_S1024x256_S512x256_512_0 : ∀ a, (![512, 0] : Fin 2 → Nat) a + S512x256.size a ≤ S1024x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  broadcasts_S256x1_S256x256 : S256x1.Broadcasts S256x256
  inb_S256x256_S256x256_0_0 : ∀ a, (![0, 0] : Fin 2 → Nat) a + S256x256.size a ≤ S256x256.size a
  h_S256x256 : 0 < S256x256.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  shapeCasts_S256x256_S256x256 : S256x256.ShapeCasts S256x256
  inb_S512x256_S256x256_0_0 : ∀ a, (![0, 0] : Fin 2 → Nat) a + S256x256.size a ≤ S512x256.size a
  inb_S512x256_S256x256_256_0 : ∀ a, (![256, 0] : Fin 2 → Nat) a + S256x256.size a ≤ S512x256.size a
  inb_S1024x256_S256x256_512_0 : ∀ a, (![512, 0] : Fin 2 → Nat) a + S256x256.size a ≤ S1024x256.size a
  inb_S1024x256_S256x256_768_0 : ∀ a, (![768, 0] : Fin 2 → Nat) a + S256x256.size a ≤ S1024x256.size a
  scatter_S8192x8192_S131072x2_S131072_n_01_01_1_wf : ScatterDims.WF S8192x8192 S131072x2 S131072 [] [0, 1] [0, 1] 1
  dot_S256x8192_S8192x512_S256x512_1_0_0_1_n_n_wf : DotDims.WF S256x8192 S8192x512 S256x512 [1] [0] [0] [1] [] []
  dot_S256x512_S512x256_S256x256_1_0_0_1_n_n_wf : DotDims.WF S256x512 S512x256 S256x256 [1] [0] [0] [1] [] []
  dot_S256x8192_S8192x256_S256x256_1_0_0_1_n_n_wf : DotDims.WF S256x8192 S8192x256 S256x256 [1] [0] [0] [1] [] []
  dot_S256x256_S256x256_S256x256_1_0_0_1_n_n_wf : DotDims.WF S256x256 S256x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .f32 = 32 ∨ (Rect.block (s := S8192x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .bf16 = 32 ∨ (Rect.block (s := S8192x8192) S256x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x256.size a
  hwx0_4 : ∀ i : grid0.Coords, EltTy.bits .f32 = 32 ∨ (Rect.block (s := S8192x256) S256x256.size (cc0_transform_4 i) (hinb0_4 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x256.size a ≤ S8192x256.size a
  k1_off2_inb : ∀ i : grid1.Coords, ∀ a, (k1_off2 i) a + S256x512.size a ≤ S8192x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x512.size a ≤ S8192x512.size a
  hwx1_0 : ∀ i : grid1.Coords, EltTy.bits .f32 = 32 ∨ (Rect.block (s := S8192x512) S8192x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8192.size a ≤ S8192x8192.size a
  hwx1_2 : ∀ i : grid1.Coords, EltTy.bits .bf16 = 32 ∨ (Rect.block (s := S8192x8192) S256x8192.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S1024x256.size a
  hwx1_5 : ∀ i : grid1.Coords, EltTy.bits .f32 = 32 ∨ (Rect.block (s := S1024x256) S1024x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S8192x256.size a
  hwx1_7 : ∀ i : grid1.Coords, EltTy.bits .f32 = 32 ∨ (Rect.block (s := S8192x256) S256x256.size (cc1_transform_7 i) (hinb1_7 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S256x8192_S8192x512_S256x512_1_0_0_1_n_n : DotDims S256x8192 S8192x512 S256x512 where
  lhsContracting := [1]
  rhsContracting := [0]
  lhsNonContracting := [0]
  rhsNonContracting := [1]
  lhsBatch := []
  rhsBatch := []
  wf := dot_S256x8192_S8192x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v20) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v26) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v28) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S8192x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v28) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v20) S256x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v34) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v36) S1024x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v37) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S256x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.Spec.lean ====
/-
  The two closed forms of the two-layer edge convolution, as functions of the arrays both programs
  compute on: the adjacency counts `A` ([8192, 8192]), the node features `X` ([8192, 512]), the packed layer
  weights `w1` ([1024, 256]), `w2` ([512, 256]), the transposed final weight `wf` ([1024, 256]) and the three
  bias rows. Both are built tile by tile: node rows `256 t … 256 t + 255` of a layer's output depend on rows `t`
  of the adjacency (all its columns), on the WHOLE previous layer (through the aggregation `A · H`) and on rows
  `t` of the previous layers (the destination features).

  `OutK` is the arrangement that contracts ONE concatenated operand per layer (`[x_dst ‖ agg] · w`), keeps the
  inverse degree and the isolated-node mask of a tile as values of their own, and reads a second, reformatted copy
  of `X` and of the first layer's output in the aggregation; `OutR` adds the contractions of the parts against
  the row-slices of the weights and recomputes degree, inverse degree and mask from the adjacency tile in the
  second layer.
-/
import proofs.«170987_g2000006520504415_pallasbulk_218_5_alg».proof.Proof.Gen.KernelIdeal.Skeleton
import proofs.«170987_g2000006520504415_pallasbulk_218_5_alg».proof.Proof.Gen.ReferenceIdeal.Skeleton
import Idealize.ShloMosaic.Lib.ValueIdx
import Idealize.ShloMosaic.Lib.Pipeline.Value

noncomputable section

namespace Cert.Spec

open Idealize.ShloMosaic Idealize.ShloMosaic.ValueIdx

/-- Rows `256 t … 256 t + 255` of an array of 8192 rows: its `t`-th row tile. -/
def rowsOf {n : Nat} {α : Type} (M : (⟨2, ![8192, n]⟩ : Shape).Idx → α) (t : Fin 32) :
    (⟨2, ![256, n]⟩ : Shape).Idx → α :=
  fun y => M (ix2 ⟨t.val * 256 + (y 0).val, by have h0 := idx2_lt0 y; have ht := t.isLt; omega⟩ ⟨(y 1).val, idx2_lt1 y⟩)

/-- The array of 8192 rows whose `t`-th row tile is `P t`: row `r` is row `r % 256` of tile `r / 256`. -/
def assemble {n : Nat} {α : Type} (P : Fin 32 → (⟨2, ![256, n]⟩ : Shape).Idx → α) :
    (⟨2, ![8192, n]⟩ : Shape).Idx → α :=
  fun i => P ⟨(i 0).val / 256, by have h0 := idx2_lt0 i; omega⟩
    (ix2 ⟨(i 0).val % 256, Nat.mod_lt _ (by decide)⟩ ⟨(i 1).val, idx2_lt1 i⟩)

theorem rowsOf_assemble {n : Nat} {α : Type} (P : Fin 32 → (⟨2, ![256, n]⟩ : Shape).Idx → α) (t : Fin 32) :
    rowsOf (assemble P) t = P t := by
  funext y
  have h0 := idx2_lt0 y
  have ht := t.isLt
  unfold rowsOf assemble
  have e1 : (t.val * 256 + (y 0).val) / 256 = t.val := by omega
  have e2 : (t.val * 256 + (y 0).val) % 256 = (y 0).val := by omega
  have hy : y = ix2 ⟨(y 0).val, h0⟩ ⟨(y 1).val, idx2_lt1 y⟩ := by
    funext a; match a with | ⟨0, _⟩ => rfl | ⟨1, _⟩ => rfl
  conv_rhs => rw [hy]
  show P ⟨(t.val * 256 + (y 0).val) / 256, _⟩ (ix2 ⟨(t.val * 256 + (y 0).val) % 256, _⟩ ⟨(y 1).val, _⟩) = _
  congr 1
  · exact Fin.ext e1
  · funext a; match a with
    | ⟨0, _⟩ => exact Fin.ext e2
    | ⟨1, _⟩ => rfl

theorem assemble_congr {n : Nat} {α : Type} {P Q : Fin 32 → (⟨2, ![256, n]⟩ : Shape).Idx → α} (h : ∀ t, P t = Q t) :
    assemble P = assemble Q := by
  have : P = Q := funext h
  rw [this]

/-- The reformatted copy of the node features the aggregation reads: at the extended reals, the same numbers. -/
def xbOf (X : Vec Ideal Cert.KernelIdeal.S8192x512 .f32) : Vec Ideal Cert.KernelIdeal.S8192x512 .bf16 := X

/-! ## The arrangement with one concatenated contraction per layer -/

section K
open Cert.KernelIdeal Cert.KernelIdeal.Gen

/-- The first layer's output on one row tile: `relu([x_dst ‖ (adj · X) · inv] · w + b) · mask`. -/
def h1TileK (adj : Vec Ideal S256x8192 .bf16) (xb : Vec Ideal S8192x512 .bf16) (xd : Vec Ideal S256x512 .f32)
    (w : Vec Ideal S1024x256 .f32) (b : Vec Ideal S1x256 .f32) : Vec Ideal S256x256 .f32 :=
  k0_pay1 (F := Ideal) (k0_pay6 (F := Ideal) adj adj xb xd w b) (k0_pay7 (F := Ideal) adj)

/-- The inverse degree `1 / max(deg, 1)` of a row tile's nodes, a column. -/
def invTile (adj : Vec Ideal S256x8192 .bf16) : Vec Ideal S256x1 .f32 := k0_pay4 (F := Ideal) adj

/-- The isolated-node mask `[deg > 0]` of a row tile's nodes, a column. -/
def mskTile (adj : Vec Ideal S256x8192 .bf16) : Vec Ideal S256x1 .f32 := k0_pay5 (F := Ideal) adj

/-- The first layer's output, all 8192 rows. -/
def H1K (A : Vec Ideal S8192x8192 .bf16) (Xb : Vec Ideal S8192x512 .bf16) (X : Vec Ideal S8192x512 .f32)
    (w1 : Vec Ideal S1024x256 .f32) (b0 : Vec Ideal S1x256 .f32) : Vec Ideal S8192x256 .f32 :=
  assemble fun t => h1TileK (rowsOf A t) Xb (rowsOf X t) w1 b0

/-- The result on one row tile: the second layer on the tile, then `[x_dst ‖ h1_dst ‖ h2] · wf + bf`. -/
def outTileK (adj : Vec Ideal S256x8192 .bf16) (h1b : Vec Ideal S8192x256 .bf16) (inv : Vec Ideal S256x1 .f32)
    (h1d : Vec Ideal S256x256 .f32) (w2 : Vec Ideal S512x256 .f32) (b1 : Vec Ideal S1x256 .f32)
    (msk : Vec Ideal S256x1 .f32) (xd : Vec Ideal S256x512 .f32) (wf : Vec Ideal S1024x256 .f32)
    (bf : Vec Ideal S1x256 .f32) : Vec Ideal S256x256 .f32 :=
  k1_pay1 (F := Ideal) (k1_pay2 (F := Ideal) adj h1b inv h1d w2 b1 msk xd h1d wf) bf

/-- The result, all 8192 rows, in the arrangement with concatenated contractions. The aggregation reads the first
    layer's output through `H1b`, its reformatted copy. -/
def OutK (A : Vec Ideal S8192x8192 .bf16) (Xb : Vec Ideal S8192x512 .bf16) (X : Vec Ideal S8192x512 .f32)
    (w1 : Vec Ideal S1024x256 .f32) (b0 : Vec Ideal S1x256 .f32) (w2 : Vec Ideal S512x256 .f32)
    (b1 : Vec Ideal S1x256 .f32) (wf : Vec Ideal S1024x256 .f32) (bf : Vec Ideal S1x256 .f32) :
    Vec Ideal S8192x256 .f32 :=
  assemble fun t => outTileK (rowsOf A t) (H1K A Xb X w1 b0) (invTile (rowsOf A t)) (rowsOf (H1K A Xb X w1 b0) t)
    w2 b1 (mskTile (rowsOf A t)) (rowsOf X t) wf bf

end K

/-! ## The arrangement that adds the parts' contractions -/

section R
open Cert.ReferenceIdeal Cert.ReferenceIdeal.Gen

/-- Rows `[off, off + 512)` of a [1024, 256] weight. -/
abbrev rect1024_512 (off : Nat) (h : off + 512 ≤ 1024) : Rect S1024x256 :=
  Rect.unit (s := S1024x256) ![off, 0] S512x256.size (fun a => by
    match a with
    | ⟨0, _⟩ => exact h
    | ⟨1, _⟩ => exact Nat.le_refl _)
/-- Rows `[off, off + 256)` of a [1024, 256] weight. -/
abbrev rect1024_256 (off : Nat) (h : off + 256 ≤ 1024) : Rect S1024x256 :=
  Rect.unit (s := S1024x256) ![off, 0] S256x256.size (fun a => by
    match a with
    | ⟨0, _⟩ => exact h
    | ⟨1, _⟩ => exact Nat.le_refl _)
/-- Rows `[off, off + 256)` of a [512, 256] weight. -/
abbrev rect512_256 (off : Nat) (h : off + 256 ≤ 512) : Rect S512x256 :=
  Rect.unit (s := S512x256) ![off, 0] S256x256.size (fun a => by
    match a with
    | ⟨0, _⟩ => exact h
    | ⟨1, _⟩ => exact Nat.le_refl _)

/-- The first layer's output on one row tile: `relu(x_dst · w[0:512] + ((adj · X) · inv) · w[512:1024] + b) · mask`. -/
def h1TileR (adj : Vec Ideal S256x8192 .bf16) (x : Vec Ideal S8192x512 .f32) (xd : Vec Ideal S256x512 .f32)
    (w : Vec Ideal S1024x256 .f32) (b : Vec Ideal S1x256 .f32) : Vec Ideal S256x256 .f32 :=
  k0_pay1 (F := Ideal) adj x xd (View.ld w (rect1024_512 0 (by decide))) (View.ld w (rect1024_512 512 (by decide))) b

/-- The first layer's output, all 8192 rows. -/
def H1R (A : Vec Ideal S8192x8192 .bf16) (X : Vec Ideal S8192x512 .f32)
    (w1 : Vec Ideal S1024x256 .f32) (b0 : Vec Ideal S1x256 .f32) : Vec Ideal S8192x256 .f32 :=
  assemble fun t => h1TileR (rowsOf A t) X (rowsOf X t) w1 b0

/-- The result on one row tile: the second layer on the tile (degree, inverse degree and mask recomputed from the
    adjacency tile), then `x_dst · wf[0:512] + h1_dst · wf[512:768] + h2 · wf[768:1024] + bf`. -/
def outTileR (adj : Vec Ideal S256x8192 .bf16) (h1 : Vec Ideal S8192x256 .f32) (h1d : Vec Ideal S256x256 .f32)
    (w2 : Vec Ideal S512x256 .f32) (b1 : Vec Ideal S1x256 .f32) (xd : Vec Ideal S256x512 .f32)
    (wf : Vec Ideal S1024x256 .f32) (bf : Vec Ideal S1x256 .f32) : Vec Ideal S256x256 .f32 :=
  k1_pay1 (F := Ideal)
    (k1_pay2 (F := Ideal) adj h1 h1d (View.ld w2 (rect512_256 0 (by decide))) (View.ld w2 (rect512_256 256 (by decide))) b1)
    xd h1d (View.ld wf (rect1024_512 0 (by decide))) (View.ld wf (rect1024_256 512 (by decide)))
    (View.ld wf (rect1024_256 768 (by decide))) bf

/-- The result, all 8192 rows, in the arrangement that adds the parts' contractions. -/
def OutR (A : Vec Ideal S8192x8192 .bf16) (X : Vec Ideal S8192x512 .f32)
    (w1 : Vec Ideal S1024x256 .f32) (b0 : Vec Ideal S1x256 .f32) (w2 : Vec Ideal S512x256 .f32)
    (b1 : Vec Ideal S1x256 .f32) (wf : Vec Ideal S1024x256 .f32) (bf : Vec Ideal S1x256 .f32) :
    Vec Ideal S8192x256 .f32 :=
  assemble fun t => outTileR (rowsOf A t) (H1R A X w1 b0) (rowsOf (H1R A X w1 b0) t) w2 b1 (rowsOf X t) wf bf

end R

end Cert.Spec

end
-- ==== Proof.KernelBlocks.lean ====
/-
  How the windows of the two pipelines read their arrays: at grid point `t` a window whose index map is `(t, 0)`
  over blocks of 256 rows reads rows `256 t … 256 t + 255` (the array's `t`-th row tile), and a window whose index
  map is `(0, 0)` over one block of the array's own shape reads the whole array; an output's row tiles cover its
  array, tile `r / 256` holding row `r`.
-/
import proofs.«170987_g2000006520504415_pallasbulk_218_5_alg».proof.Proof.Gen.KernelIdeal.Frame
import proofs.«170987_g2000006520504415_pallasbulk_218_5_alg».proof.Proof.Spec
import Idealize.ShloMosaic.PureOps.Ideal

set_option maxRecDepth 16384

noncomputable section

namespace Cert.KernelSide

open Idealize.ShloMosaic Idealize.ShloMosaic.TcCoe Idealize.ShloMosaic.ValueIdx Idealize.SL.Sem
open Cert.KernelIdeal Cert.KernelIdeal.Gen Cert.Spec

/-- A grid point of the first pipeline as a tile number. -/
abbrev tile0 (t : Fin cfg0.N) : Fin 32 := ⟨t.val, t.isLt⟩
/-- A grid point of the second pipeline as a tile number. -/
abbrev tile1 (t : Fin cfg1.N) : Fin 32 := ⟨t.val, t.isLt⟩

/-- The index maps of pipeline 0's windows, decided over the 32 grid points: `(0, 0)` for a window of one block,
    `(t, 0)` for a window of row tiles. -/
theorem idx0 : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The index maps of pipeline 1's windows, decided over the 32 grid points: `(0, 0)` for a window of one block,
    `(t, 0)` for a window of row tiles. -/
theorem idx1 : ∀ t : Fin cfg1.N,
    (win1_0.index t (0 : Fin 2) = 0 ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

variable (V : (c : Dev nD) → (b : Ref sig .tc) → Buf (Elt Ideal) ((c : Thread nD τ).loc b))

/-- Window 0 of pipeline 0 is one block of its array's shape: every point reads the whole array. -/
theorem iblk0_0 (c : Dev nD) (t : Fin cfg0.N) :
    iblk0 (F := Ideal) V c 0 t = (V c main_call0_v21 : S8192x512.Idx → EReal) := by
  obtain ⟨⟨e0, e1⟩, -⟩ := idx0 t
  funext j
  show V c main_call0_v21 (((cfg0.win 0).blk t).view.emb j) = V c main_call0_v21 j
  refine congrArg _ (funext fun a => Fin.ext ?_)
  match a with
  | ⟨0, _⟩ => show win0_0.index t (0 : Fin 2) * 8192 + 1 * (j 0).val = (j 0).val; rw [e0]; omega
  | ⟨1, _⟩ => show win0_0.index t (1 : Fin 2) * 512 + 1 * (j 1).val = (j 1).val; rw [e1]; omega

/-- Window 1 of pipeline 0 at point `t` reads its array's `t`-th row tile. -/
theorem iblk0_1 (c : Dev nD) (t : Fin cfg0.N) :
    iblk0 (F := Ideal) V c 1 t = rowsOf (V c main_arg0 : S8192x512.Idx → EReal) (tile0 t) := by
  obtain ⟨-, ⟨e0, e1⟩, -⟩ := idx0 t
  funext j
  show V c main_arg0 (((cfg0.win 1).blk t).view.emb j) = V c main_arg0 _
  refine congrArg _ (funext fun a => Fin.ext ?_)
  match a with
  | ⟨0, _⟩ => show win0_1.index t (0 : Fin 2) * 256 + 1 * (j 0).val = t.val * 256 + (j 0).val; rw [e0]; omega
  | ⟨1, _⟩ => show win0_1.index t (1 : Fin 2) * 512 + 1 * (j 1).val = (j 1).val; rw [e1]; omega

/-- Window 2 of pipeline 0 at point `t` reads its array's `t`-th row tile. -/
theorem iblk0_2 (c : Dev nD) (t : Fin cfg0.N) :
    iblk0 (F := Ideal) V c 2 t = rowsOf (V c main_call0_v20 : S8192x8192.Idx → EReal) (tile0 t) := by
  obtain ⟨-, -, ⟨e0, e1⟩, -⟩ := idx0 t
  funext j
  show V c main_call0_v20 (((cfg0.win 2).blk t).view.emb j) = V c main_call0_v20 _
  refine congrArg _ (funext fun a => Fin.ext ?_)
  match a with
  | ⟨0, _⟩ => show win0_2.index t (0 : Fin 2) * 256 + 1 * (j 0).val = t.val * 256 + (j 0).val; rw [e0]; omega
  | ⟨1, _⟩ => show win0_2.index t (1 : Fin 2) * 8192 + 1 * (j 1).val = (j 1).val; rw [e1]; omega

/-- Window 3 of pipeline 0 is one block of its array's shape: every point reads the whole array. -/
theorem iblk0_3 (c : Dev nD) (t : Fin cfg0.N) :
    iblk0 (F := Ideal) V c 3 t = (V c main_call0_v27 : S1024x256.Idx → EReal) := by
  obtain ⟨-, -, -, ⟨e0, e1⟩, -⟩ := idx0 t
  funext j
  show V c main_call0_v27 (((cfg0.win 3).blk t).view.emb j) = V c main_call0_v27 j
  refine congrArg _ (funext fun a => Fin.ext ?_)
  match a with
  | ⟨0, _⟩ => show win0_3.index t (0 : Fin 2) * 1024 + 1 * (j 0).val = (j 0).val; rw [e0]; omega
  | ⟨1, _⟩ => show win0_3.index t (1 : Fin 2) * 256 + 1 * (j 1).val = (j 1).val; rw [e1]; omega

/-- Window 4 of pipeline 0 is one block of its array's shape: every point reads the whole array. -/
theorem iblk0_4 (c : Dev nD) (t : Fin cfg0.N) :
    iblk0 (F := Ideal) V c 4 t = (V c main_call0_v35 : S1x256.Idx → EReal) := by
  obtain ⟨-, -, -, -, ⟨e0, e1⟩, -⟩ := idx0 t
  funext j
  show V c main_call0_v35 (((cfg0.win 4).blk t).view.emb j) = V c main_call0_v35 j
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 256 + 1 * (j 1).val = (j 1).val; rw [e1]; omega

/-- Output window 5 of pipeline 0: point `t`'s block of any array is the array's `t`-th row tile. -/
theorem read_blk0_5 (t : Fin cfg0.N) (M : S8192x256.Idx → EReal) :
    ((cfg0.win 5).blk t).view.read (Elt Ideal) M = rowsOf M (tile0 t) := by
  obtain ⟨-, -, -, -, -, ⟨e0, e1⟩, -⟩ := idx0 t
  funext j
  show M (((cfg0.win 5).blk t).view.emb j) = M _
  refine congrArg _ (funext fun a => Fin.ext ?_)
  match a with
  | ⟨0, _⟩ => show win0_5.index t (0 : Fin 2) * 256 + 1 * (j 0).val = t.val * 256 + (j 0).val; rw [e0]; omega
  | ⟨1, _⟩ => show win0_5.index t (1 : Fin 2) * 256 + 1 * (j 1).val = (j 1).val; rw [e1]; omega

/-- An index of the array is in point `t`'s block iff each coordinate is in the block's range on its axis. -/
theorem mem_blk0_5 (t : Fin cfg0.N) (i : S8192x256.Idx) :
    i ∈ ((cfg0.win 5).blk t).view.set ↔ ∀ a : Fin 2, win0_5.index t a * S256x256.size a ≤ (i a).val ∧ (i a).val < win0_5.index t a * S256x256.size a + S256x256.size a := by
  show i ∈ ((View.whole main_call0_v36_0).slice (win0_5.rect t)).set ↔ _
  rw [View.set_slice_whole, Rect.mem_set_unit]
  exact Iff.rfl

/-- Every row of the array is in the block of the point numbered by its tile. -/
theorem covered0_5 (i : S8192x256.Idx) :
    ∃ t : Fin cfg0.N, (cfg0.win 5).flush t = true ∧ i ∈ ((cfg0.win 5).blk t).view.set := by
  have h0 : (i 0).val < 8192 := (i 0).isLt
  have h1 : (i 1).val < 256 := (i 1).isLt
  refine ⟨⟨(i 0).val / 256, by show _ < 32; omega⟩, flush0_5 _, ?_⟩
  rw [mem_blk0_5]
  obtain ⟨-, -, -, -, -, ⟨e0, e1⟩, -⟩ := idx0 ⟨(i 0).val / 256, by show _ < 32; omega⟩
  intro a
  match a with
  | ⟨0, _⟩ => show win0_5.index _ (0 : Fin 2) * 256 ≤ (i 0).val ∧ (i 0).val < win0_5.index _ (0 : Fin 2) * 256 + 256; rw [e0]; show (i 0).val / 256 * 256 ≤ _ ∧ _ < (i 0).val / 256 * 256 + 256; omega
  | ⟨1, _⟩ => show win0_5.index _ (1 : Fin 2) * 256 ≤ (i 1).val ∧ (i 1).val < win0_5.index _ (1 : Fin 2) * 256 + 256; rw [e1]; omega

/-- Output window 6 of pipeline 0: point `t`'s block of any array is the array's `t`-th row tile. -/
theorem read_blk0_6 (t : Fin cfg0.N) (M : S8192x256.Idx → EReal) :
    ((cfg0.win 6).blk t).view.read (Elt Ideal) M = rowsOf M (tile0 t) := by
  obtain ⟨-, -, -, -, -, -, ⟨e0, e1⟩, -⟩ := idx0 t
  funext j
  show M (((cfg0.win 6).blk t).view.emb j) = M _
  refine congrArg _ (funext fun a => Fin.ext ?_)
  match a with
  | ⟨0, _⟩ => show win0_6.index t (0 : Fin 2) * 256 + 1 * (j 0).val = t.val * 256 + (j 0).val; rw [e0]; omega
  | ⟨1, _⟩ => show win0_6.index t (1 : Fin 2) * 256 + 1 * (j 1).val = (j 1).val; rw [e1]; omega

/-- An index of the array is in point `t`'s block iff each coordinate is in the block's range on its axis. -/
theorem mem_blk0_6 (t : Fin cfg0.N) (i : S8192x256.Idx) :
    i ∈ ((cfg0.win 6).blk t).view.set ↔ ∀ a : Fin 2, win0_6.index t a * S256x256.size a ≤ (i a).val ∧ (i a).val < win0_6.index t a * S256x256.size a + S256x256.size a := by
  show i ∈ ((View.whole main_call0_v36_1).slice (win0_6.rect t)).set ↔ _
  rw [View.set_slice_whole, Rect.mem_set_unit]
  exact Iff.rfl

/-- Every row of the array is in the block of the point numbered by its tile. -/
theorem covered0_6 (i : S8192x256.Idx) :
    ∃ t : Fin cfg0.N, (cfg0.win 6).flush t = true ∧ i ∈ ((cfg0.win 6).blk t).view.set := by
  have h0 : (i 0).val < 8192 := (i 0).isLt
  have h1 : (i 1).val < 256 := (i 1).isLt
  refine ⟨⟨(i 0).val / 256, by show _ < 32; omega⟩, flush0_6 _, ?_⟩
  rw [mem_blk0_6]
  obtain ⟨-, -, -, -, -, -, ⟨e0, e1⟩, -⟩ := idx0 ⟨(i 0).val / 256, by show _ < 32; omega⟩
  intro a
  match a with
  | ⟨0, _⟩ => show win0_6.index _ (0 : Fin 2) * 256 ≤ (i 0).val ∧ (i 0).val < win0_6.index _ (0 : Fin 2) * 256 + 256; rw [e0]; show (i 0).val / 256 * 256 ≤ _ ∧ _ < (i 0).val / 256 * 256 + 256; omega
  | ⟨1, _⟩ => show win0_6.index _ (1 : Fin 2) * 256 ≤ (i 1).val ∧ (i 1).val < win0_6.index _ (1 : Fin 2) * 256 + 256; rw [e1]; omega

/-- Output window 7 of pipeline 0: point `t`'s block of any array is the array's `t`-th row tile. -/
theorem read_blk0_7 (t : Fin cfg0.N) (M : S8192x1.Idx → EReal) :
    ((cfg0.win 7).blk t).view.read (Elt Ideal) M = rowsOf M (tile0 t) := by
  obtain ⟨-, -, -, -, -, -, -, ⟨e0, e1⟩, -⟩ := idx0 t
  funext j
  show M (((cfg0.win 7).blk t).view.emb j) = M _
  refine congrArg _ (funext fun a => Fin.ext ?_)
  match a with
  | ⟨0, _⟩ => show win0_7.index t (0 : Fin 2) * 256 + 1 * (j 0).val = t.val * 256 + (j 0).val; rw [e0]; omega
  | ⟨1, _⟩ => show win0_7.index t (1 : Fin 2) * 1 + 1 * (j 1).val = (j 1).val; rw [e1]; omega

/-- An index of the array is in point `t`'s block iff each coordinate is in the block's range on its axis. -/
theorem mem_blk0_7 (t : Fin cfg0.N) (i : S8192x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_call0_v36_2).slice (win0_7.rect t)).set ↔ _
  rw [View.set_slice_whole, Rect.mem_set_unit]
  exact Iff.rfl

/-- Every row of the array is in the block of the point numbered by its tile. -/
theorem covered0_7 (i : S8192x1.Idx) :
    ∃ t : Fin cfg0.N, (cfg0.win 7).flush t = true ∧ i ∈ ((cfg0.win 7).blk t).view.set := by
  have h0 : (i 0).val < 8192 := (i 0).isLt
  have h1 : (i 1).val < 1 := (i 1).isLt
  refine ⟨⟨(i 0).val / 256, by show _ < 32; omega⟩, flush0_7 _, ?_⟩
  rw [mem_blk0_7]
  obtain ⟨-, -, -, -, -, -, -, ⟨e0, e1⟩, -⟩ := idx0 ⟨(i 0).val / 256, by show _ < 32; omega⟩
  intro a
  match a with
  | ⟨0, _⟩ => show win0_7.index _ (0 : Fin 2) * 256 ≤ (i 0).val ∧ (i 0).val < win0_7.index _ (0 : Fin 2) * 256 + 256; rw [e0]; show (i 0).val / 256 * 256 ≤ _ ∧ _ < (i 0).val / 256 * 256 + 256; omega
  | ⟨1, _⟩ => show win0_7.index _ (1 : Fin 2) * 1 ≤ (i 1).val ∧ (i 1).val < win0_7.index _ (1 : Fin 2) * 1 + 1; rw [e1]; omega

/-- Output window 8 of pipeline 0: point `t`'s block of any array is the array's `t`-th row tile. -/
theorem read_blk0_8 (t : Fin cfg0.N) (M : S8192x1.Idx → EReal) :
    ((cfg0.win 8).blk t).view.read (Elt Ideal) M = rowsOf M (tile0 t) := by
  obtain ⟨-, -, -, -, -, -, -, -, ⟨e0, e1⟩⟩ := idx0 t
  funext j
  show M (((cfg0.win 8).blk t).view.emb j) = M _
  refine congrArg _ (funext fun a => Fin.ext ?_)
  match a with
  | ⟨0, _⟩ => show win0_8.index t (0 : Fin 2) * 256 + 1 * (j 0).val = t.val * 256 + (j 0).val; rw [e0]; omega
  | ⟨1, _⟩ => show win0_8.index t (1 : Fin 2) * 1 + 1 * (j 1).val = (j 1).val; rw [e1]; omega

/-- An index of the array is in point `t`'s block iff each coordinate is in the block's range on its axis. -/
theorem mem_blk0_8 (t : Fin cfg0.N) (i : S8192x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_call0_v36_3).slice (win0_8.rect t)).set ↔ _
  rw [View.set_slice_whole, Rect.mem_set_unit]
  exact Iff.rfl

/-- Every row of the array is in the block of the point numbered by its tile. -/
theorem covered0_8 (i : S8192x1.Idx) :
    ∃ t : Fin cfg0.N, (cfg0.win 8).flush t = true ∧ i ∈ ((cfg0.win 8).blk t).view.set := by
  have h0 : (i 0).val < 8192 := (i 0).isLt
  have h1 : (i 1).val < 1 := (i 1).isLt
  refine ⟨⟨(i 0).val / 256, by show _ < 32; omega⟩, flush0_8 _, ?_⟩
  rw [mem_blk0_8]
  obtain ⟨-, -, -, -, -, -, -, -, ⟨e0, e1⟩⟩ := idx0 ⟨(i 0).val / 256, by show _ < 32; omega⟩
  intro a
  match a with
  | ⟨0, _⟩ => show win0_8.index _ (0 : Fin 2) * 256 ≤ (i 0).val ∧ (i 0).val < win0_8.index _ (0 : Fin 2) * 256 + 256; rw [e0]; show (i 0).val / 256 * 256 ≤ _ ∧ _ < (i 0).val / 256 * 256 + 256; omega
  | ⟨1, _⟩ => show win0_8.index _ (1 : Fin 2) * 1 ≤ (i 1).val ∧ (i 1).val < win0_8.index _ (1 : Fin 2) * 1 + 1; rw [e1]; omega

/-- Window 0 of pipeline 1 is one block of its array's shape: every point reads the whole array. -/
theorem iblk1_0 (c : Dev nD) (t : Fin cfg1.N) :
    iblk1 (F := Ideal) V c 0 t = (V c main_call0_v36_1 : S8192x256.Idx → EReal) := by
  obtain ⟨⟨e0, e1⟩, -⟩ := idx1 t
  funext j
  show V c main_call0_v36_1 (((cfg1.win 0).blk t).view.emb j) = V c main_call0_v36_1 j
  refine congrArg _ (funext fun a => Fin.ext ?_)
  match a with
  | ⟨0, _⟩ => show win1_0.index t (0 : Fin 2) * 8192 + 1 * (j 0).val = (j 0).val; rw [e0]; omega
  | ⟨1, _⟩ => show win1_0.index t (1 : Fin 2) * 256 + 1 * (j 1).val = (j 1).val; rw [e1]; omega

/-- Window 1 of pipeline 1 at point `t` reads its array's `t`-th row tile. -/
theorem iblk1_1 (c : Dev nD) (t : Fin cfg1.N) :
    iblk1 (F := Ideal) V c 1 t = rowsOf (V c main_call0_v36_0 : S8192x256.Idx → EReal) (tile1 t) := by
  obtain ⟨-, ⟨e0, e1⟩, -⟩ := idx1 t
  funext j
  show V c main_call0_v36_0 (((cfg1.win 1).blk t).view.emb j) = V c main_call0_v36_0 _
  refine congrArg _ (funext fun a => Fin.ext ?_)
  match a with
  | ⟨0, _⟩ => show win1_1.index t (0 : Fin 2) * 256 + 1 * (j 0).val = t.val * 256 + (j 0).val; rw [e0]; omega
  | ⟨1, _⟩ => show win1_1.index t (1 : Fin 2) * 256 + 1 * (j 1).val = (j 1).val; rw [e1]; omega

/-- Window 2 of pipeline 1 at point `t` reads its array's `t`-th row tile. -/
theorem iblk1_2 (c : Dev nD) (t : Fin cfg1.N) :
    iblk1 (F := Ideal) V c 2 t = rowsOf (V c main_arg0 : S8192x512.Idx → EReal) (tile1 t) := by
  obtain ⟨-, -, ⟨e0, e1⟩, -⟩ := idx1 t
  funext j
  show V c main_arg0 (((cfg1.win 2).blk t).view.emb j) = V c main_arg0 _
  refine congrArg _ (funext fun a => Fin.ext ?_)
  match a with
  | ⟨0, _⟩ => show win1_2.index t (0 : Fin 2) * 256 + 1 * (j 0).val = t.val * 256 + (j 0).val; rw [e0]; omega
  | ⟨1, _⟩ => show win1_2.index t (1 : Fin 2) * 512 + 1 * (j 1).val = (j 1).val; rw [e1]; omega

/-- Window 3 of pipeline 1 at point `t` reads its array's `t`-th row tile. -/
theorem iblk1_3 (c : Dev nD) (t : Fin cfg1.N) :
    iblk1 (F := Ideal) V c 3 t = rowsOf (V c main_call0_v20 : S8192x8192.Idx → EReal) (tile1 t) := by
  obtain ⟨-, -, -, ⟨e0, e1⟩, -⟩ := idx1 t
  funext j
  show V c main_call0_v20 (((cfg1.win 3).blk t).view.emb j) = V c main_call0_v20 _
  refine congrArg _ (funext fun a => Fin.ext ?_)
  match a with
  | ⟨0, _⟩ => show win1_3.index t (0 : Fin 2) * 256 + 1 * (j 0).val = t.val * 256 + (j 0).val; rw [e0]; omega
  | ⟨1, _⟩ => show win1_3.index t (1 : Fin 2) * 8192 + 1 * (j 1).val = (j 1).val; rw [e1]; omega

/-- Window 4 of pipeline 1 is one block of its array's shape: every point reads the whole array. -/
theorem iblk1_4 (c : Dev nD) (t : Fin cfg1.N) :
    iblk1 (F := Ideal) V c 4 t = (V c main_call0_v33 : S512x256.Idx → EReal) := by
  obtain ⟨-, -, -, -, ⟨e0, e1⟩, -⟩ := idx1 t
  funext j
  show V c main_call0_v33 (((cfg1.win 4).blk t).view.emb j) = V c main_call0_v33 j
  refine congrArg _ (funext fun a => Fin.ext ?_)
  match a with
  | ⟨0, _⟩ => show win1_4.index t (0 : Fin 2) * 512 + 1 * (j 0).val = (j 0).val; rw [e0]; omega
  | ⟨1, _⟩ => show win1_4.index t (1 : Fin 2) * 256 + 1 * (j 1).val = (j 1).val; rw [e1]; omega

/-- Window 5 of pipeline 1 is one block of its array's shape: every point reads the whole array. -/
theorem iblk1_5 (c : Dev nD) (t : Fin cfg1.N) :
    iblk1 (F := Ideal) V c 5 t = (V c main_call0_v37 : S1x256.Idx → EReal) := by
  obtain ⟨-, -, -, -, -, ⟨e0, e1⟩, -⟩ := idx1 t
  funext j
  show V c main_call0_v37 (((cfg1.win 5).blk t).view.emb j) = V c main_call0_v37 j
  refine congrArg _ (funext fun a => Fin.ext ?_)
  match a with
  | ⟨0, _⟩ => show win1_5.index t (0 : Fin 2) * 1 + 1 * (j 0).val = (j 0).val; rw [e0]; omega
  | ⟨1, _⟩ => show win1_5.index t (1 : Fin 2) * 256 + 1 * (j 1).val = (j 1).val; rw [e1]; omega

/-- Window 6 of pipeline 1 is one block of its array's shape: every point reads the whole array. -/
theorem iblk1_6 (c : Dev nD) (t : Fin cfg1.N) :
    iblk1 (F := Ideal) V c 6 t = (V c main_call0_v34 : S1024x256.Idx → EReal) := by
  obtain ⟨-, -, -, -, -, -, ⟨e0, e1⟩, -⟩ := idx1 t
  funext j
  show V c main_call0_v34 (((cfg1.win 6).blk t).view.emb j) = V c main_call0_v34 j
  refine congrArg _ (funext fun a => Fin.ext ?_)
  match a with
  | ⟨0, _⟩ => show win1_6.index t (0 : Fin 2) * 1024 + 1 * (j 0).val = (j 0).val; rw [e0]; omega
  | ⟨1, _⟩ => show win1_6.index t (1 : Fin 2) * 256 + 1 * (j 1).val = (j 1).val; rw [e1]; omega

/-- Window 7 of pipeline 1 is one block of its array's shape: every point reads the whole array. -/
theorem iblk1_7 (c : Dev nD) (t : Fin cfg1.N) :
    iblk1 (F := Ideal) V c 7 t = (V c main_call0_v38 : S1x256.Idx → EReal) := by
  obtain ⟨-, -, -, -, -, -, -, ⟨e0, e1⟩, -⟩ := idx1 t
  funext j
  show V c main_call0_v38 (((cfg1.win 7).blk t).view.emb j) = V c main_call0_v38 j
  refine congrArg _ (funext fun a => Fin.ext ?_)
  match a with
  | ⟨0, _⟩ => show win1_7.index t (0 : Fin 2) * 1 + 1 * (j 0).val = (j 0).val; rw [e0]; omega
  | ⟨1, _⟩ => show win1_7.index t (1 : Fin 2) * 256 + 1 * (j 1).val = (j 1).val; rw [e1]; omega

/-- Window 8 of pipeline 1 at point `t` reads its array's `t`-th row tile. -/
theorem iblk1_8 (c : Dev nD) (t : Fin cfg1.N) :
    iblk1 (F := Ideal) V c 8 t = rowsOf (V c main_call0_v36_2 : S8192x1.Idx → EReal) (tile1 t) := by
  obtain ⟨-, -, -, -, -, -, -, -, ⟨e0, e1⟩, -⟩ := idx1 t
  funext j
  show V c main_call0_v36_2 (((cfg1.win 8).blk t).view.emb j) = V c main_call0_v36_2 _
  refine congrArg _ (funext fun a => Fin.ext ?_)
  match a with
  | ⟨0, _⟩ => show win1_8.index t (0 : Fin 2) * 256 + 1 * (j 0).val = t.val * 256 + (j 0).val; rw [e0]; omega
  | ⟨1, _⟩ => show win1_8.index t (1 : Fin 2) * 1 + 1 * (j 1).val = (j 1).val; rw [e1]; omega

/-- Window 9 of pipeline 1 at point `t` reads its array's `t`-th row tile. -/
theorem iblk1_9 (c : Dev nD) (t : Fin cfg1.N) :
    iblk1 (F := Ideal) V c 9 t = rowsOf (V c main_call0_v36_3 : S8192x1.Idx → EReal) (tile1 t) := by
  obtain ⟨-, -, -, -, -, -, -, -, -, ⟨e0, e1⟩, -⟩ := idx1 t
  funext j
  show V c main_call0_v36_3 (((cfg1.win 9).blk t).view.emb j) = V c main_call0_v36_3 _
  refine congrArg _ (funext fun a => Fin.ext ?_)
  match a with
  | ⟨0, _⟩ => show win1_9.index t (0 : Fin 2) * 256 + 1 * (j 0).val = t.val * 256 + (j 0).val; rw [e0]; omega
  | ⟨1, _⟩ => show win1_9.index t (1 : Fin 2) * 1 + 1 * (j 1).val = (j 1).val; rw [e1]; omega

/-- Output window 10 of pipeline 1: point `t`'s block of any array is the array's `t`-th row tile. -/
theorem read_blk1_10 (t : Fin cfg1.N) (M : S8192x256.Idx → EReal) :
    ((cfg1.win 10).blk t).view.read (Elt Ideal) M = rowsOf M (tile1 t) := by
  obtain ⟨-, -, -, -, -, -, -, -, -, -, ⟨e0, e1⟩⟩ := idx1 t
  funext j
  show M (((cfg1.win 10).blk t).view.emb j) = M _
  refine congrArg _ (funext fun a => Fin.ext ?_)
  match a with
  | ⟨0, _⟩ => show win1_10.index t (0 : Fin 2) * 256 + 1 * (j 0).val = t.val * 256 + (j 0).val; rw [e0]; omega
  | ⟨1, _⟩ => show win1_10.index t (1 : Fin 2) * 256 + 1 * (j 1).val = (j 1).val; rw [e1]; omega

/-- An index of the array is in point `t`'s block iff each coordinate is in the block's range on its axis. -/
theorem mem_blk1_10 (t : Fin cfg1.N) (i : S8192x256.Idx) :
    i ∈ ((cfg1.win 10).blk t).view.set ↔ ∀ a : Fin 2, win1_10.index t a * S256x256.size a ≤ (i a).val ∧ (i a).val < win1_10.index t a * S256x256.size a + S256x256.size a := by
  show i ∈ ((View.whole main_v0).slice (win1_10.rect t)).set ↔ _
  rw [View.set_slice_whole, Rect.mem_set_unit]
  exact Iff.rfl

/-- Every row of the array is in the block of the point numbered by its tile. -/
theorem covered1_10 (i : S8192x256.Idx) :
    ∃ t : Fin cfg1.N, (cfg1.win 10).flush t = true ∧ i ∈ ((cfg1.win 10).blk t).view.set := by
  have h0 : (i 0).val < 8192 := (i 0).isLt
  have h1 : (i 1).val < 256 := (i 1).isLt
  refine ⟨⟨(i 0).val / 256, by show _ < 32; omega⟩, flush1_10 _, ?_⟩
  rw [mem_blk1_10]
  obtain ⟨-, -, -, -, -, -, -, -, -, -, ⟨e0, e1⟩⟩ := idx1 ⟨(i 0).val / 256, by show _ < 32; omega⟩
  intro a
  match a with
  | ⟨0, _⟩ => show win1_10.index _ (0 : Fin 2) * 256 ≤ (i 0).val ∧ (i 0).val < win1_10.index _ (0 : Fin 2) * 256 + 256; rw [e0]; show (i 0).val / 256 * 256 ≤ _ ∧ _ < (i 0).val / 256 * 256 + 256; omega
  | ⟨1, _⟩ => show win1_10.index _ (1 : Fin 2) * 256 ≤ (i 1).val ∧ (i 1).val < win1_10.index _ (1 : Fin 2) * 256 + 256; rw [e1]; omega

end Cert.KernelSide

end
-- ==== Proof.KernelLayer1.lean ====
/-
  The first pipeline's four output arrays after its 32 grid points, as whole-array functions of the arrays it
  reads: the first layer's output `H1K` (twice: once in each of the two formats, the same numbers at the extended
  reals), the inverse degrees and the isolated-node masks, tile by tile. Each grid point writes back the block its
  body computed from the point's input blocks; the blocks are the arrays' row tiles and cover them.
-/
import proofs.«170987_g2000006520504415_pallasbulk_218_5_alg».proof.Proof.KernelBlocks

set_option maxRecDepth 16384

noncomputable section

namespace Cert.KernelSide

open Idealize.ShloMosaic Idealize.ShloMosaic.TcCoe Idealize.ShloMosaic.ValueIdx Idealize.SL.Sem
open Cert.KernelIdeal Cert.KernelIdeal.Gen Cert.Spec

theorem hz : (![0, 0] : Fin 2 → Nat) = fun _ => 0 := funext fun a => by fin_cases a <;> rfl

variable (V : (c : Dev nD) → (b : Ref sig .tc) → Buf (Elt Ideal) ((c : Thread nD τ).loc b))

/-- What point `t` writes back through output window 5: the `t`-th row tile of the first layer's output. -/
theorem flushed0_5 (c : Dev nD) (t : Fin cfg0.N) :
    (dat0 (F := Ideal) V c).flushed 5 t = ((cfg0.win 5).blk t).view.read (Elt Ideal)
      (H1K (V c main_call0_v20 : S8192x8192.Idx → EReal) (V c main_call0_v21 : S8192x512.Idx → EReal) (V c main_arg0 : S8192x512.Idx → EReal) (V c main_call0_v27 : S1024x256.Idx → EReal) (V c main_call0_v35 : S1x256.Idx → EReal)) := by
  rw [read_blk0_5]
  unfold H1K
  rw [rowsOf_assemble]
  show (cfg0.win 5).cut (grid0.coords t) ((dat0 V c).after 5 t) = _
  rw [after0_5]
  unfold out0_5
  rw [View.canon_unit_zero hz]
  simp only [View.ld_unit_zero (S := S256x8192) hz, View.ld_unit_zero (S := S8192x512) hz, View.ld_unit_zero (S := S256x512) hz, View.ld_unit_zero (S := S1024x256) hz, View.ld_unit_zero (S := S1x256) hz]
  rw [iblk0_0, iblk0_1, iblk0_2, iblk0_3, iblk0_4]
  rfl

theorem final0_5 (c : Dev nD) :
    ((dat0 (F := Ideal) V c).arrAt 5 cfg0.N : S8192x256.Idx → EReal) = H1K (V c main_call0_v20 : S8192x8192.Idx → EReal) (V c main_call0_v21 : S8192x512.Idx → EReal) (V c main_arg0 : S8192x512.Idx → EReal) (V c main_call0_v27 : S1024x256.Idx → EReal) (V c main_call0_v35 : S1x256.Idx → EReal) :=
  (dat0 (F := Ideal) V c).arrAt_eq_of_cover 5 _ (fun t _ => flushed0_5 V c t) covered0_5

/-- The same tile in the 16-bit format: a change of format is the identity at the extended reals. -/
theorem flushed0_6 (c : Dev nD) (t : Fin cfg0.N) :
    (dat0 (F := Ideal) V c).flushed 6 t = ((cfg0.win 6).blk t).view.read (Elt Ideal)
      (H1K (V c main_call0_v20 : S8192x8192.Idx → EReal) (V c main_call0_v21 : S8192x512.Idx → EReal) (V c main_arg0 : S8192x512.Idx → EReal) (V c main_call0_v27 : S1024x256.Idx → EReal) (V c main_call0_v35 : S1x256.Idx → EReal)) := by
  rw [read_blk0_6]
  unfold H1K
  rw [rowsOf_assemble]
  show (cfg0.win 6).cut (grid0.coords t) ((dat0 V c).after 6 t) = _
  rw [after0_6]
  unfold out0_6
  rw [View.canon_unit_zero hz]
  simp only [View.ld_unit_zero (S := S256x8192) hz, View.ld_unit_zero (S := S8192x512) hz, View.ld_unit_zero (S := S256x512) hz, View.ld_unit_zero (S := S1024x256) hz, View.ld_unit_zero (S := S1x256) hz]
  rw [iblk0_0, iblk0_1, iblk0_2, iblk0_3, iblk0_4]
  rfl

theorem final0_6 (c : Dev nD) :
    ((dat0 (F := Ideal) V c).arrAt 6 cfg0.N : S8192x256.Idx → EReal) = H1K (V c main_call0_v20 : S8192x8192.Idx → EReal) (V c main_call0_v21 : S8192x512.Idx → EReal) (V c main_arg0 : S8192x512.Idx → EReal) (V c main_call0_v27 : S1024x256.Idx → EReal) (V c main_call0_v35 : S1x256.Idx → EReal) :=
  (dat0 (F := Ideal) V c).arrAt_eq_of_cover 6 _ (fun t _ => flushed0_6 V c t) covered0_6

/-- The inverse degrees of the `t`-th tile's nodes, from the `t`-th row tile of the adjacency. -/
theorem flushed0_7 (c : Dev nD) (t : Fin cfg0.N) :
    (dat0 (F := Ideal) V c).flushed 7 t = ((cfg0.win 7).blk t).view.read (Elt Ideal)
      (assemble fun t' => invTile (rowsOf (V c main_call0_v20 : S8192x8192.Idx → EReal) t')) := by
  rw [read_blk0_7, rowsOf_assemble]
  show (cfg0.win 7).cut (grid0.coords t) ((dat0 V c).after 7 t) = _
  rw [after0_7]
  unfold out0_7
  rw [View.canon_unit_zero hz]
  simp only [View.ld_unit_zero (S := S256x8192) hz]
  rw [iblk0_2]
  rfl

theorem final0_7 (c : Dev nD) :
    ((dat0 (F := Ideal) V c).arrAt 7 cfg0.N : S8192x1.Idx → EReal)
      = assemble fun t' => invTile (rowsOf (V c main_call0_v20 : S8192x8192.Idx → EReal) t') :=
  (dat0 (F := Ideal) V c).arrAt_eq_of_cover 7 _ (fun t _ => flushed0_7 V c t) covered0_7

/-- The isolated-node masks of the `t`-th tile's nodes, from the `t`-th row tile of the adjacency. -/
theorem flushed0_8 (c : Dev nD) (t : Fin cfg0.N) :
    (dat0 (F := Ideal) V c).flushed 8 t = ((cfg0.win 8).blk t).view.read (Elt Ideal)
      (assemble fun t' => mskTile (rowsOf (V c main_call0_v20 : S8192x8192.Idx → EReal) t')) := by
  rw [read_blk0_8, rowsOf_assemble]
  show (cfg0.win 8).cut (grid0.coords t) ((dat0 V c).after 8 t) = _
  rw [after0_8]
  unfold out0_8
  rw [View.canon_unit_zero hz]
  simp only [View.ld_unit_zero (S := S256x8192) hz]
  rw [iblk0_2]
  rfl

theorem final0_8 (c : Dev nD) :
    ((dat0 (F := Ideal) V c).arrAt 8 cfg0.N : S8192x1.Idx → EReal)
      = assemble fun t' => mskTile (rowsOf (V c main_call0_v20 : S8192x8192.Idx → EReal) t') :=
  (dat0 (F := Ideal) V c).arrAt_eq_of_cover 8 _ (fun t _ => flushed0_8 V c t) covered0_8

end Cert.KernelSide

end
-- ==== Proof.KernelLayer2.lean ====
/-
  The second pipeline's output array after its 32 grid points, as a whole-array function of the arrays it reads:
  tile `t` is the second layer and the final linear map on the `t`-th row tiles of the adjacency, of the first
  layer's output, of the inverse degrees, of the masks and of the features, and on the whole first-layer output
  (the aggregation's operand) and the weights.
-/
import proofs.«170987_g2000006520504415_pallasbulk_218_5_alg».proof.Proof.KernelLayer1

set_option maxRecDepth 16384

noncomputable section

namespace Cert.KernelSide

open Idealize.ShloMosaic Idealize.ShloMosaic.TcCoe Idealize.ShloMosaic.ValueIdx Idealize.SL.Sem
open Cert.KernelIdeal Cert.KernelIdeal.Gen Cert.Spec

variable (V : (c : Dev nD) → (b : Ref sig .tc) → Buf (Elt Ideal) ((c : Thread nD τ).loc b))

/-- What point `t` writes back through the output window: the `t`-th row tile of the result. -/
theorem flushed1_10 (c : Dev nD) (t : Fin cfg1.N) :
    (dat1 (F := Ideal) V c).flushed 10 t = ((cfg1.win 10).blk t).view.read (Elt Ideal)
      (assemble fun t' => outTileK (rowsOf (V c main_call0_v20 : S8192x8192.Idx → EReal) t') (V c main_call0_v36_1 : S8192x256.Idx → EReal)
        (rowsOf (V c main_call0_v36_2 : S8192x1.Idx → EReal) t') (rowsOf (V c main_call0_v36_0 : S8192x256.Idx → EReal) t')
        (V c main_call0_v33 : S512x256.Idx → EReal) (V c main_call0_v37 : S1x256.Idx → EReal) (rowsOf (V c main_call0_v36_3 : S8192x1.Idx → EReal) t')
        (rowsOf (V c main_arg0 : S8192x512.Idx → EReal) t') (V c main_call0_v34 : S1024x256.Idx → EReal) (V c main_call0_v38 : S1x256.Idx → EReal)) := by
  rw [read_blk1_10, rowsOf_assemble]
  show (cfg1.win 10).cut (grid1.coords t) ((dat1 V c).after 10 t) = _
  rw [after1_10]
  unfold out1_10
  rw [View.canon_unit_zero hz]
  simp only [View.ld_unit_zero (S := S256x8192) hz, View.ld_unit_zero (S := S8192x256) hz, View.ld_unit_zero (S := S256x1) hz, View.ld_unit_zero (S := S256x256) hz, View.ld_unit_zero (S := S512x256) hz, View.ld_unit_zero (S := S1x256) hz, View.ld_unit_zero (S := S256x512) hz, View.ld_unit_zero (S := S1024x256) hz]
  rw [iblk1_0, iblk1_1, iblk1_2, iblk1_3, iblk1_4, iblk1_5, iblk1_6, iblk1_7, iblk1_8, iblk1_9]
  rfl

theorem final1_10 (c : Dev nD) :
    ((dat1 (F := Ideal) V c).arrAt 10 cfg1.N : S8192x256.Idx → EReal)
      = (assemble fun t' => outTileK (rowsOf (V c main_call0_v20 : S8192x8192.Idx → EReal) t') (V c main_call0_v36_1 : S8192x256.Idx → EReal)
        (rowsOf (V c main_call0_v36_2 : S8192x1.Idx → EReal) t') (rowsOf (V c main_call0_v36_0 : S8192x256.Idx → EReal) t')
        (V c main_call0_v33 : S512x256.Idx → EReal) (V c main_call0_v37 : S1x256.Idx → EReal) (rowsOf (V c main_call0_v36_3 : S8192x1.Idx → EReal) t')
        (rowsOf (V c main_arg0 : S8192x512.Idx → EReal) t') (V c main_call0_v34 : S1024x256.Idx → EReal) (V c main_call0_v38 : S1x256.Idx → EReal)) :=
  (dat1 (F := Ideal) V c).arrAt_eq_of_cover 10 _ (fun t _ => flushed1_10 V c t) covered1_10

end Cert.KernelSide

end
-- ==== Proof.HostTerms.lean ====
/-
  The arrays both programs prepare on the host before the first pipeline, as functions of the argument arrays:
  the adjacency counts (a scatter-add of ones at the (destination, source) pairs of the edge list, negative indices
  wrapped by the node count), the packed layer weights `[(W[:, :C] - W[:, C:])ᵀ ; W[:, C:]ᵀ]`, the transposed final
  weight and a bias as a row.
-/
import proofs.«170987_g2000006520504415_pallasbulk_218_5_alg».proof.Proof.Gen.KernelIdeal
import Idealize.ShloMosaic.PureOps.Ideal

noncomputable section

namespace Cert.Spec

open Idealize.ShloMosaic Cert.KernelIdeal
open Cert.KernelIdeal.Facts₀ Cert.KernelIdeal.Facts

/-- Row `r` of the edge list as a vector of 131072 node numbers. -/
def edgeRow0 (e : IVec S2x131072 32) : IVec S131072 32 :=
  shapeCast S131072 (extractStridedSlice S1x131072 ![0, 0] e slices_S2x131072_S1x131072_0_0) shapeCasts_S1x131072_S131072
def edgeRow1 (e : IVec S2x131072 32) : IVec S131072 32 :=
  shapeCast S131072 (extractStridedSlice S1x131072 ![1, 0] e slices_S2x131072_S1x131072_1_0) shapeCasts_S1x131072_S131072

/-- A vector of node numbers with the negative ones wrapped by the node count 8192, as a column. -/
def wrapCol (v : IVec S131072 32) : IVec S131072x1 32 :=
  broadcastInDim S131072x1 ![0] bcast_S131072_S131072x1_0
    (select (cmpi .slt v (broadcastInDim S131072 ![] bcast_S_S131072 (constantI S_ 32 0#32)))
      (addi v (broadcastInDim S131072 ![] bcast_S_S131072 (constantI S_ 32 8192#32))) v)

/-- The adjacency counts: entry (d, s) is the number of edges s → d, in the 16-bit format. -/
def adjOf (e : IVec S2x131072 32) : Vec Ideal S8192x8192 .bf16 :=
  truncf (F := Ideal) .bf16
    (Host.scatterAdd (F := Ideal) scatter_S8192x8192_S131072x2_S131072_n_01_01_1
      (broadcastInDim S8192x8192 ![] bcast_S_S8192x8192 (constant (F := Ideal) S_ .f32 0x00000000#32))
      (concatenate S131072x2 1 [⟨S131072x1, wrapCol (edgeRow1 e)⟩, ⟨S131072x1, wrapCol (edgeRow0 e)⟩]
        concatenates_S131072x1_S131072x1_S131072x2_d1)
      (broadcastInDim S131072 ![] bcast_S_S131072 (constant (F := Ideal) S_ .f32 0x3F800000#32)))
    bitsLt_bf16_f32

/-- The first layer's packed weight, [1024, 256]. -/
def w1Of (W : Vec Ideal S256x1024 .f32) : Vec Ideal S1024x256 .f32 :=
  concatenate S1024x256 0
    [⟨S512x256, transpose S512x256 [1, 0]
        (subf (F := Ideal) (φ := .f32) (extractStridedSlice (α := Ideal .f32) S256x512 ![0, 0] W slices_S256x1024_S256x512_0_0)
          (extractStridedSlice (α := Ideal .f32) S256x512 ![0, 512] W slices_S256x1024_S256x512_0_512))
        transposes_S256x512_S512x256_1_0⟩,
     ⟨S512x256, transpose S512x256 [1, 0] (extractStridedSlice S256x512 ![0, 512] W slices_S256x1024_S256x512_0_512)
        transposes_S256x512_S512x256_1_0⟩]
    concatenates_S512x256_S512x256_S1024x256_d0

/-- The second layer's packed weight, [512, 256]. -/
def w2Of (W : Vec Ideal S256x512 .f32) : Vec Ideal S512x256 .f32 :=
  concatenate S512x256 0
    [⟨S256x256, transpose S256x256 [1, 0]
        (subf (F := Ideal) (φ := .f32) (extractStridedSlice (α := Ideal .f32) S256x256 ![0, 0] W slices_S256x512_S256x256_0_0)
          (extractStridedSlice (α := Ideal .f32) S256x256 ![0, 256] W slices_S256x512_S256x256_0_256))
        transposes_S256x256_S256x256_1_0⟩,
     ⟨S256x256, transpose S256x256 [1, 0] (extractStridedSlice S256x256 ![0, 256] W slices_S256x512_S256x256_0_256)
        transposes_S256x256_S256x256_1_0⟩]
    concatenates_S256x256_S256x256_S512x256_d0

/-- The final weight transposed, [1024, 256]. -/
def wfOf (W : Vec Ideal S256x1024 .f32) : Vec Ideal S1024x256 .f32 :=
  transpose S1024x256 [1, 0] W transposes_S256x1024_S1024x256_1_0

/-- A bias vector as a row [1, 256]. -/
def rowOf (b : Vec Ideal S256 .f32) : Vec Ideal S1x256 .f32 :=
  shapeCast S1x256 b shapeCasts_S256_S1x256

end Cert.Spec

end
-- ==== Proof.KernelHost.lean ====
/-
  The arrays the host prepares before the first pipeline, read back as functions of the launch arguments.
-/
import proofs.«170987_g2000006520504415_pallasbulk_218_5_alg».proof.Proof.Gen.KernelIdeal.Frame
import proofs.«170987_g2000006520504415_pallasbulk_218_5_alg».proof.Proof.HostTerms
import proofs.«170987_g2000006520504415_pallasbulk_218_5_alg».proof.Proof.Spec
import Idealize.ShloMosaic.Lib.StableHlo.Run

set_option maxRecDepth 16384

noncomputable section

namespace Cert.KernelSide

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg)

set_option maxHeartbeats 1000000 in
theorem V1_adj (c : Dev nD) :
    (V1 (F := Ideal) m ρ c main_call0_v20 : S8192x8192.Idx → EReal) = adjOf (m ((c : Thread nD τ).loc main_arg1)) := by
  show StableHlo.after hostOps0 (W0 m ρ c) (Proc.devRef .tc main_call0_v20) = _
  after_results
  rfl

set_option maxHeartbeats 1000000 in
theorem V1_xb (c : Dev nD) :
    (V1 (F := Ideal) m ρ c main_call0_v21 : S8192x512.Idx → EReal) = xbOf (m ((c : Thread nD τ).loc main_arg0)) := by
  show StableHlo.after hostOps0 (W0 m ρ c) (Proc.devRef .tc main_call0_v21) = _
  after_results
  rfl

set_option maxHeartbeats 1000000 in
theorem V1_w1 (c : Dev nD) :
    (V1 (F := Ideal) m ρ c main_call0_v27 : S1024x256.Idx → EReal) = w1Of (m ((c : Thread nD τ).loc main_arg2)) := by
  show StableHlo.after hostOps0 (W0 m ρ c) (Proc.devRef .tc main_call0_v27) = _
  after_results
  rfl

set_option maxHeartbeats 1000000 in
theorem V1_b0 (c : Dev nD) :
    (V1 (F := Ideal) m ρ c main_call0_v35 : S1x256.Idx → EReal) = rowOf (m ((c : Thread nD τ).loc main_arg3)) := by
  show StableHlo.after hostOps0 (W0 m ρ c) (Proc.devRef .tc main_call0_v35) = _
  after_results
  rfl

set_option maxHeartbeats 1000000 in
theorem V1_w2 (c : Dev nD) :
    (V1 (F := Ideal) m ρ c main_call0_v33 : S512x256.Idx → EReal) = w2Of (m ((c : Thread nD τ).loc main_arg4)) := by
  show StableHlo.after hostOps0 (W0 m ρ c) (Proc.devRef .tc main_call0_v33) = _
  after_results
  rfl

set_option maxHeartbeats 1000000 in
theorem V1_wf (c : Dev nD) :
    (V1 (F := Ideal) m ρ c main_call0_v34 : S1024x256.Idx → EReal) = wfOf (m ((c : Thread nD τ).loc main_arg6)) := by
  show StableHlo.after hostOps0 (W0 m ρ c) (Proc.devRef .tc main_call0_v34) = _
  after_results
  rfl

set_option maxHeartbeats 1000000 in
theorem V1_x (c : Dev nD) :
    (V1 (F := Ideal) m ρ c main_arg0 : S8192x512.Idx → EReal) = m ((c : Thread nD τ).loc main_arg0) := by
  show StableHlo.after hostOps0 (W0 m ρ c) (Proc.devRef .tc main_arg0) = _
  after_results <;> rfl

end Cert.KernelSide

end
-- ==== Proof.KernelRun.lean ====
/-
  The run of the program that contracts concatenated operands, with its result named: every weakly fair execution
  terminates, nothing faults, the result array ends at the contents of the last boundary of the run and the
  argument arrays end as launched.
-/
import proofs.«170987_g2000006520504415_pallasbulk_218_5_alg».proof.Proof.Gen.KernelIdeal.Frame

set_option maxRecDepth 16384

noncomputable section

namespace Cert.KernelSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result array at the
    contents the last boundary of the run gives it and the eight argument arrays as launched. -/
theorem run_v0 : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelSide

end
-- ==== Proof.KernelValue.lean ====
/-
  The result array of the program that contracts concatenated operands, as the closed form `OutK` of the launch
  arguments: the second pipeline's arrays at its entry are the first pipeline's outputs (no host operation between
  the two writes them), the arrays the host prepared before the first pipeline, and the two bias rows the host
  reshapes between the pipelines.
-/
import proofs.«170987_g2000006520504415_pallasbulk_218_5_alg».proof.Proof.KernelLayer2
import proofs.«170987_g2000006520504415_pallasbulk_218_5_alg».proof.Proof.KernelHost
import proofs.«170987_g2000006520504415_pallasbulk_218_5_alg».proof.Proof.KernelRun

set_option maxRecDepth 16384

noncomputable section

namespace Cert.KernelSide

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-! ## The second pipeline's entry contents, walked back -/

theorem V3_adj (c : Dev nD) : (V3 (F := Ideal) m ρ c main_call0_v20 : S8192x8192.Idx → EReal) = V1 m ρ c main_call0_v20 :=
  calc W3 m ρ c (Proc.devRef .tc main_call0_v20)
    _ = W2 m ρ c (Proc.devRef .tc main_call0_v20) := StableHlo.after_of_forall_not_mem (b := Proc.devRef .tc main_call0_v20) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = V1 m ρ c main_call0_v20 := (W2_arr m ρ c 2).trans (((dat0 (V1 m ρ) c).arrAt_in 2 rfl _).trans (A_eq0 (V1 m ρ) c 2))

theorem V3_x (c : Dev nD) : (V3 (F := Ideal) m ρ c main_arg0 : S8192x512.Idx → EReal) = V1 m ρ c main_arg0 :=
  calc W3 m ρ c (Proc.devRef .tc main_arg0)
    _ = W2 m ρ c (Proc.devRef .tc main_arg0) := StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = V1 m ρ c main_arg0 := (W2_arr m ρ c 1).trans (((dat0 (V1 m ρ) c).arrAt_in 1 rfl _).trans (A_eq0 (V1 m ρ) c 1))

theorem V3_h1f (c : Dev nD) : (V3 (F := Ideal) m ρ c main_call0_v36_0 : S8192x256.Idx → EReal)
    = H1K (V1 m ρ c main_call0_v20 : S8192x8192.Idx → EReal) (V1 m ρ c main_call0_v21 : S8192x512.Idx → EReal) (V1 m ρ c main_arg0 : S8192x512.Idx → EReal) (V1 m ρ c main_call0_v27 : S1024x256.Idx → EReal) (V1 m ρ c main_call0_v35 : S1x256.Idx → EReal) :=
  calc W3 m ρ c (Proc.devRef .tc main_call0_v36_0)
    _ = W2 m ρ c (Proc.devRef .tc main_call0_v36_0) := StableHlo.after_of_forall_not_mem (b := Proc.devRef .tc main_call0_v36_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = _ := (W2_arr m ρ c 5).trans (final0_5 (V1 m ρ) c)

theorem V3_h1b (c : Dev nD) : (V3 (F := Ideal) m ρ c main_call0_v36_1 : S8192x256.Idx → EReal)
    = H1K (V1 m ρ c main_call0_v20 : S8192x8192.Idx → EReal) (V1 m ρ c main_call0_v21 : S8192x512.Idx → EReal) (V1 m ρ c main_arg0 : S8192x512.Idx → EReal) (V1 m ρ c main_call0_v27 : S1024x256.Idx → EReal) (V1 m ρ c main_call0_v35 : S1x256.Idx → EReal) :=
  calc W3 m ρ c (Proc.devRef .tc main_call0_v36_1)
    _ = W2 m ρ c (Proc.devRef .tc main_call0_v36_1) := StableHlo.after_of_forall_not_mem (b := Proc.devRef .tc main_call0_v36_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = _ := (W2_arr m ρ c 6).trans (final0_6 (V1 m ρ) c)

theorem V3_inv (c : Dev nD) : (V3 (F := Ideal) m ρ c main_call0_v36_2 : S8192x1.Idx → EReal)
    = assemble fun t' => invTile (rowsOf (V1 m ρ c main_call0_v20 : S8192x8192.Idx → EReal) t') :=
  calc W3 m ρ c (Proc.devRef .tc main_call0_v36_2)
    _ = W2 m ρ c (Proc.devRef .tc main_call0_v36_2) := StableHlo.after_of_forall_not_mem (b := Proc.devRef .tc main_call0_v36_2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = _ := (W2_arr m ρ c 7).trans (final0_7 (V1 m ρ) c)

theorem V3_msk (c : Dev nD) : (V3 (F := Ideal) m ρ c main_call0_v36_3 : S8192x1.Idx → EReal)
    = assemble fun t' => mskTile (rowsOf (V1 m ρ c main_call0_v20 : S8192x8192.Idx → EReal) t') :=
  calc W3 m ρ c (Proc.devRef .tc main_call0_v36_3)
    _ = W2 m ρ c (Proc.devRef .tc main_call0_v36_3) := StableHlo.after_of_forall_not_mem (b := Proc.devRef .tc main_call0_v36_3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = _ := (W2_arr m ρ c 8).trans (final0_8 (V1 m ρ) c)

theorem V3_w2 (c : Dev nD) : (V3 (F := Ideal) m ρ c main_call0_v33 : S512x256.Idx → EReal) = V1 m ρ c main_call0_v33 :=
  calc W3 m ρ c (Proc.devRef .tc main_call0_v33)
    _ = W2 m ρ c (Proc.devRef .tc main_call0_v33) := StableHlo.after_of_forall_not_mem (b := Proc.devRef .tc main_call0_v33) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = V1 m ρ c main_call0_v33 := W2_of_ne m ρ c main_call0_v33 (by decide)

theorem V3_wf (c : Dev nD) : (V3 (F := Ideal) m ρ c main_call0_v34 : S1024x256.Idx → EReal) = V1 m ρ c main_call0_v34 :=
  calc W3 m ρ c (Proc.devRef .tc main_call0_v34)
    _ = W2 m ρ c (Proc.devRef .tc main_call0_v34) := StableHlo.after_of_forall_not_mem (b := Proc.devRef .tc main_call0_v34) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = V1 m ρ c main_call0_v34 := W2_of_ne m ρ c main_call0_v34 (by decide)

/-- An argument the first pipeline does not read is, after it, as launched. -/
theorem W2_arg5 (c : Dev nD) : W2 (F := Ideal) m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem W2_arg7 (c : Dev nD) : W2 (F := Ideal) m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

theorem V3_b1 (c : Dev nD) : (V3 (F := Ideal) m ρ c main_call0_v37 : S1x256.Idx → EReal) = rowOf (m ((c : Thread nD τ).loc main_arg5)) := by
  show StableHlo.after hostOps1 (W2 m ρ c) (Proc.devRef .tc main_call0_v37) = _
  after_results
  rw [W2_arg5]
  rfl

theorem V3_bf (c : Dev nD) : (V3 (F := Ideal) m ρ c main_call0_v38 : S1x256.Idx → EReal) = rowOf (m ((c : Thread nD τ).loc main_arg7)) := by
  show StableHlo.after hostOps1 (W2 m ρ c) (Proc.devRef .tc main_call0_v38) = _
  after_results
  rw [W2_arg7]
  rfl

/-! ## The result -/

theorem W4_v0 (c : Dev nD) : (W4 (F := Ideal) m ρ c (Proc.devRef .tc main_v0) : S8192x256.Idx → EReal)
    = OutK (adjOf (m ((c : Thread nD τ).loc main_arg1))) (xbOf (m ((c : Thread nD τ).loc main_arg0))) (m ((c : Thread nD τ).loc main_arg0))
        (w1Of (m ((c : Thread nD τ).loc main_arg2))) (rowOf (m ((c : Thread nD τ).loc main_arg3)))
        (w2Of (m ((c : Thread nD τ).loc main_arg4))) (rowOf (m ((c : Thread nD τ).loc main_arg5)))
        (wfOf (m ((c : Thread nD τ).loc main_arg6))) (rowOf (m ((c : Thread nD τ).loc main_arg7))) := by
  refine (W4_arr m ρ c 10).trans ((final1_10 (V3 m ρ) c).trans ?_)
  rw [V3_adj, V3_h1b, V3_inv, V3_h1f, V3_w2, V3_b1, V3_msk, V3_x, V3_wf, V3_bf]
  simp only [rowsOf_assemble]
  rw [V1_adj, V1_xb, V1_x, V1_w1, V1_b0, V1_w2, V1_wf]
  rfl

/-- Every weakly fair execution terminates without a fault with the result array at `OutK` of the launch arguments
    and the arguments as launched. -/
theorem value : θ_run (defs (F := Ideal)) (onTc (τ := τ) (main (F := Ideal))) ⟨m, fun _ => 0, ρ⟩ (fun r => ∀ c : Dev nD,
      r.2.mem ((c.tc : Thread nD τ).loc main_v0)
        = OutK (adjOf (m ((c : Thread nD τ).loc main_arg1))) (xbOf (m ((c : Thread nD τ).loc main_arg0))) (m ((c : Thread nD τ).loc main_arg0))
            (w1Of (m ((c : Thread nD τ).loc main_arg2))) (rowOf (m ((c : Thread nD τ).loc main_arg3)))
            (w2Of (m ((c : Thread nD τ).loc main_arg4))) (rowOf (m ((c : Thread nD τ).loc main_arg5)))
            (wfOf (m ((c : Thread nD τ).loc main_arg6))) (rowOf (m ((c : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_v0 m ρ c), (h c).2⟩) (run_v0 m ρ)

end Cert.KernelSide

end
-- ==== Proof.RefRun.lean ====
/- The reference program's run with its result named.

   Every weakly fair execution of the reference's @main terminates without a fault; in the final
   state the result array holds the contents the last region's write-backs leave (the boundary
   contents after the second region, read at the result buffer), and the eight argument arrays
   are as launched.  @main is four segments — host operations, the first region, host operations,
   the second region — each entered from the buffer contents the one before leaves; the last thread
   state holds every unscoped buffer at the contents after the second region, the result buffer
   among them. -/
import proofs.«170987_g2000006520504415_pallasbulk_218_5_alg».proof.Proof.Gen.ReferenceIdeal.Frame

set_option maxRecDepth 16384

noncomputable section

namespace Cert.RefSide

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The reference's run: it terminates, nothing faults, the result buffer ends at the contents
    the second region leaves there, and every argument array ends as launched. -/
theorem run_named : θ_run defs (onTc (τ := τ) (main (F := F))) ⟨m, fun _ => 0, ρ⟩ (fun r => ∀ c : Dev nD,
      r.2.mem ((c.tc : Thread nD τ).loc main_v0) = Gen.W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.RefSide

end
-- ==== Proof.RefPieces.lean ====
/- What each of the reference's two tile bodies leaves in its output block.

   Each body ends in ONE store that covers the whole [256, 256] output block, so the block holds that
   store's value: the body's arithmetic applied to the values it loaded.  A load of a whole staging
   buffer reads the buffer's contents; a load at a row offset reads the rows from that offset on
   (kept here as the load through its rectangle of rows). -/
import proofs.«170987_g2000006520504415_pallasbulk_218_5_alg».proof.Proof.Gen.ReferenceIdeal.Frame
import Idealize.ShloMosaic.Lib.Pipeline.Value

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- What the first region's body leaves in its output block, as one function of the values it loads:
    the adjacency tile, the whole feature array, the tile's own feature rows (loaded at the computed row
    offset), the two row-halves of the packed weight and the bias row. -/
theorem out0_eq (c : Dev nD) (i : grid0.Coords)
    (a1 : Memref sig .tc .vmem S8192x512 .f32) (h1 : a1.IsWhole) (a2 : Memref sig .tc .vmem S256x8192 .bf16) (h2 : a2.IsWhole)
    (a3 : Memref sig .tc .vmem S1024x256 .f32) (h3 : a3.IsWhole) (a4 : Memref sig .tc .vmem S1x256 .f32) (h4 : a4.IsWhole)
    (a5 : Memref sig .tc .vmem S256x256 .f32) (h5 : a5.IsWhole)
    (x0 : Vec F S8192x512 .f32) (x1 : Vec F S256x8192 .bf16) (x2 : Vec F S1024x256 .f32) (x3 : Vec F S1x256 .f32) :
    out0_A_4 c i a1 h1 a2 h2 a3 h3 a4 h4 a5 h5 x0 x1 x2 x3
      = k0_pay1 x1 x0 (View.ld x0 (Rect.unit (s := S8192x512) (k0_off1 i) S256x512.size (k0_off1_inb i)))
          (View.ld x2 (Rect.unit (s := S1024x256) ![0, 0] S512x256.size inb_S1024x256_S512x256_0_0))
          (View.ld x2 (Rect.unit (s := S1024x256) ![512, 0] S512x256.size inb_S1024x256_S512x256_512_0)) x3 := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S8192x512) hz, View.ld_unit_zero (S := S256x8192) hz, View.ld_unit_zero (S := S1x256) hz]

/-- What the second region's body leaves in its output block. -/
theorem out1_eq (c : Dev nD) (i : grid1.Coords)
    (a1 : Memref sig .tc .vmem S8192x512 .f32) (h1 : a1.IsWhole) (a2 : Memref sig .tc .vmem S8192x256 .f32) (h2 : a2.IsWhole)
    (a3 : Memref sig .tc .vmem S256x8192 .bf16) (h3 : a3.IsWhole) (a4 : Memref sig .tc .vmem S512x256 .f32) (h4 : a4.IsWhole)
    (a5 : Memref sig .tc .vmem S1x256 .f32) (h5 : a5.IsWhole) (a6 : Memref sig .tc .vmem S1024x256 .f32) (h6 : a6.IsWhole)
    (a7 : Memref sig .tc .vmem S1x256 .f32) (h7 : a7.IsWhole) (a8 : Memref sig .tc .vmem S256x256 .f32) (h8 : a8.IsWhole)
    (x0 : Vec F S8192x512 .f32) (x1 : Vec F S8192x256 .f32) (x2 : Vec F S256x8192 .bf16) (x3 : Vec F S512x256 .f32)
    (x4 : Vec F S1x256 .f32) (x5 : Vec F S1024x256 .f32) (x6 : Vec F S1x256 .f32) :
    out1_A_7 c i a1 h1 a2 h2 a3 h3 a4 h4 a5 h5 a6 h6 a7 h7 a8 h8 x0 x1 x2 x3 x4 x5 x6
      = k1_pay1
          (k1_pay2 x2 x1 (View.ld x1 (Rect.unit (s := S8192x256) (k1_off1 i) S256x256.size (k1_off1_inb i)))
            (View.ld x3 (Rect.unit (s := S512x256) ![0, 0] S256x256.size inb_S512x256_S256x256_0_0))
            (View.ld x3 (Rect.unit (s := S512x256) ![256, 0] S256x256.size inb_S512x256_S256x256_256_0)) x4)
          (View.ld x0 (Rect.unit (s := S8192x512) (k1_off2 i) S256x512.size (k1_off2_inb i)))
          (View.ld x1 (Rect.unit (s := S8192x256) (k1_off1 i) S256x256.size (k1_off1_inb i)))
          (View.ld x5 (Rect.unit (s := S1024x256) ![0, 0] S512x256.size inb_S1024x256_S512x256_0_0))
          (View.ld x5 (Rect.unit (s := S1024x256) ![512, 0] S256x256.size inb_S1024x256_S256x256_512_0))
          (View.ld x5 (Rect.unit (s := S1024x256) ![768, 0] S256x256.size inb_S1024x256_S256x256_768_0)) x6 := by
  unfold out1_A_7
  rw [View.read_writes_eq_canon _ _ _ (cover1_A_7 c i a1 h1 a2 h2 a3 h3 a4 h4 a5 h5 a6 h6 a7 h7 a8 h8 x0 x1 x2 x3 x4 x5 x6)]
  unfold kernelRun1_A
  dsimp only
  sl_unfold_words
  rw [View.canon_unit_zero hz]
  simp only [View.readAt_eq_ld, h1.read_unread, h2.read_unread, h3.read_unread, h4.read_unread, h5.read_unread,
    h6.read_unread, h7.read_unread,
    View.ld_unit_zero (S := S8192x256) hz, View.ld_unit_zero (S := S256x8192) hz, View.ld_unit_zero (S := S1x256) hz]

end Cert.RefSide

end
-- ==== Proof.RefBlocks.lean ====
/- The row tiles the reference's two regions read and write.

   Both regions run over 32 grid points; point `t` works on node rows `256 t … 256 t + 255`.  The
   adjacency's window and each output window move with the point: their block at `t` is the `t`-th row
   tile of the array.  Every other operand's window is the whole array at every point, and the body takes
   the point's rows of it by a load at the row offset `256 t`, which it computes in 32-bit words; over the
   32 points that word product is the natural number `256 t`.  The output blocks are disjoint row tiles
   that together cover the 8192 rows: row `r` lies in the block of point `r / 256`. -/
import proofs.«170987_g2000006520504415_pallasbulk_218_5_alg».proof.Proof.Gen.ReferenceIdeal.Frame
import proofs.«170987_g2000006520504415_pallasbulk_218_5_alg».proof.Proof.Spec
import Idealize.ShloMosaic.Lib.Pipeline.Value

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

open Cert.Spec

/-- A grid point of either region as a tile number. -/
def tile0 (t : Fin cfg0.N) : Fin 32 := ⟨t.val, by have h := t.isLt; have e : cfg0.N = 32 := N_0; omega⟩
def tile1 (t : Fin cfg1.N) : Fin 32 := ⟨t.val, by have h := t.isLt; have e : cfg1.N = 32 := N_1; omega⟩

/-- The windows' index maps and the computed row offsets, decided over the 32 grid points. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = t.val * 256 ∧ k0_off1 (grid0.coords t) (1 : Fin 2) = 0 :=
  (by decide +kernel : ∀ t : Fin grid0.N, _)

theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ k1_off1 (grid1.coords t) (0 : Fin 2) = t.val * 256 ∧ k1_off1 (grid1.coords t) (1 : Fin 2) = 0
    ∧ k1_off2 (grid1.coords t) (0 : Fin 2) = t.val * 256 ∧ k1_off2 (grid1.coords t) (1 : Fin 2) = 0 :=
  (by decide +kernel : ∀ t : Fin grid1.N, _)

/-- A load of 256 rows from row offset `256 t` reads the `t`-th row tile. -/
theorem ld_rows {n : Nat} {α : EltTy → Type} {e : EltTy} (X : (⟨2, ![8192, n]⟩ : Shape).Idx → α e) (t : Fin 32) (off : Fin 2 → Nat)
    (inb : ∀ a, off a + (⟨2, ![256, n]⟩ : Shape).size a ≤ (⟨2, ![8192, n]⟩ : Shape).size a)
    (h0 : off 0 = t.val * 256) (h1 : off 1 = 0) :
    View.ld (Val := α) (e' := e) X (Rect.unit (s := ⟨2, ![8192, n]⟩) off (⟨2, ![256, n]⟩ : Shape).size inb) = rowsOf X t := by
  funext y
  show X _ = X _
  congr 1
  funext a
  apply Fin.ext
  match a with
  | ⟨0, _⟩ => show off 0 + 1 * (y 0).val = t.val * 256 + (y 0).val; omega
  | ⟨1, _⟩ => show off 1 + 1 * (y 1).val = (y 1).val; omega

variable (V : (c : Dev nD) → (b : Ref sig .tc) → Buf (Elt F) ((c : Thread nD τ).loc b))

/-! ## The input windows' blocks: a whole array, or the `t`-th row tile of one -/

theorem iblk0_0 (c : Dev nD) (t : Fin cfg0.N) : (iblk0 V c 0 t : Vec F S8192x512 .f32) = V c main_arg0 := by
  obtain ⟨e0, e1, -⟩ := idx_facts0 t
  funext y
  show V c main_arg0 (((cfg0.win 0).blk t).view.emb y) = V c main_arg0 y
  congr 1
  funext a; apply Fin.ext
  match a with
  | ⟨0, _⟩ => show win0_0.index t (0 : Fin 2) * 8192 + 1 * (y 0).val = (y 0).val; omega
  | ⟨1, _⟩ => show win0_0.index t (1 : Fin 2) * 512 + 1 * (y 1).val = (y 1).val; omega

theorem iblk0_1 (c : Dev nD) (t : Fin cfg0.N) : (iblk0 V c 1 t : Vec F S256x8192 .bf16) = rowsOf (V c main_call0_v20) (tile0 t) := by
  obtain ⟨-, -, e0, e1, -⟩ := idx_facts0 t
  funext y
  show V c main_call0_v20 (((cfg0.win 1).blk t).view.emb y) = V c main_call0_v20 _
  congr 1
  funext a; apply Fin.ext
  match a with
  | ⟨0, _⟩ => show win0_1.index t (0 : Fin 2) * 256 + 1 * (y 0).val = t.val * 256 + (y 0).val; omega
  | ⟨1, _⟩ => show win0_1.index t (1 : Fin 2) * 8192 + 1 * (y 1).val = (y 1).val; omega

theorem iblk0_2 (c : Dev nD) (t : Fin cfg0.N) : (iblk0 V c 2 t : Vec F S1024x256 .f32) = V c main_call0_v26 := by
  obtain ⟨-, -, -, -, e0, e1, -⟩ := idx_facts0 t
  funext y
  show V c main_call0_v26 (((cfg0.win 2).blk t).view.emb y) = V c main_call0_v26 y
  congr 1
  funext a; apply Fin.ext
  match a with
  | ⟨0, _⟩ => show win0_2.index t (0 : Fin 2) * 1024 + 1 * (y 0).val = (y 0).val; omega
  | ⟨1, _⟩ => show win0_2.index t (1 : Fin 2) * 256 + 1 * (y 1).val = (y 1).val; omega

theorem iblk0_3 (c : Dev nD) (t : Fin cfg0.N) : (iblk0 V c 3 t : Vec F S1x256 .f32) = V c main_call0_v27 := by
  obtain ⟨-, -, -, -, -, -, e0, e1, -⟩ := idx_facts0 t
  funext y
  show V c main_call0_v27 (((cfg0.win 3).blk t).view.emb y) = V c main_call0_v27 y
  congr 1
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem iblk1_0 (c : Dev nD) (t : Fin cfg1.N) : (iblk1 V c 0 t : Vec F S8192x512 .f32) = V c main_arg0 := by
  obtain ⟨e0, e1, -⟩ := idx_facts1 t
  funext y
  show V c main_arg0 (((cfg1.win 0).blk t).view.emb y) = V c main_arg0 y
  congr 1
  funext a; apply Fin.ext
  match a with
  | ⟨0, _⟩ => show win1_0.index t (0 : Fin 2) * 8192 + 1 * (y 0).val = (y 0).val; omega
  | ⟨1, _⟩ => show win1_0.index t (1 : Fin 2) * 512 + 1 * (y 1).val = (y 1).val; omega

theorem iblk1_1 (c : Dev nD) (t : Fin cfg1.N) : (iblk1 V c 1 t : Vec F S8192x256 .f32) = V c main_call0_v28 := by
  obtain ⟨-, -, e0, e1, -⟩ := idx_facts1 t
  funext y
  show V c main_call0_v28 (((cfg1.win 1).blk t).view.emb y) = V c main_call0_v28 y
  congr 1
  funext a; apply Fin.ext
  match a with
  | ⟨0, _⟩ => show win1_1.index t (0 : Fin 2) * 8192 + 1 * (y 0).val = (y 0).val; omega
  | ⟨1, _⟩ => show win1_1.index t (1 : Fin 2) * 256 + 1 * (y 1).val = (y 1).val; omega

theorem iblk1_2 (c : Dev nD) (t : Fin cfg1.N) : (iblk1 V c 2 t : Vec F S256x8192 .bf16) = rowsOf (V c main_call0_v20) (tile1 t) := by
  obtain ⟨-, -, -, -, e0, e1, -⟩ := idx_facts1 t
  funext y
  show V c main_call0_v20 (((cfg1.win 2).blk t).view.emb y) = V c main_call0_v20 _
  congr 1
  funext a; apply Fin.ext
  match a with
  | ⟨0, _⟩ => show win1_2.index t (0 : Fin 2) * 256 + 1 * (y 0).val = t.val * 256 + (y 0).val; omega
  | ⟨1, _⟩ => show win1_2.index t (1 : Fin 2) * 8192 + 1 * (y 1).val = (y 1).val; omega

theorem iblk1_3 (c : Dev nD) (t : Fin cfg1.N) : (iblk1 V c 3 t : Vec F S512x256 .f32) = V c main_call0_v34 := by
  obtain ⟨-, -, -, -, -, -, e0, e1, -⟩ := idx_facts1 t
  funext y
  show V c main_call0_v34 (((cfg1.win 3).blk t).view.emb y) = V c main_call0_v34 y
  congr 1
  funext a; apply Fin.ext
  match a with
  | ⟨0, _⟩ => show win1_3.index t (0 : Fin 2) * 512 + 1 * (y 0).val = (y 0).val; omega
  | ⟨1, _⟩ => show win1_3.index t (1 : Fin 2) * 256 + 1 * (y 1).val = (y 1).val; omega

theorem iblk1_4 (c : Dev nD) (t : Fin cfg1.N) : (iblk1 V c 4 t : Vec F S1x256 .f32) = V c main_call0_v35 := by
  obtain ⟨-, -, -, -, -, -, -, -, e0, e1, -⟩ := idx_facts1 t
  funext y
  show V c main_call0_v35 (((cfg1.win 4).blk t).view.emb y) = V c main_call0_v35 y
  congr 1
  funext a; apply Fin.ext
  match a with
  | ⟨0, _⟩ => show win1_4.index t (0 : Fin 2) * 1 + 1 * (y 0).val = (y 0).val; omega
  | ⟨1, _⟩ => show win1_4.index t (1 : Fin 2) * 256 + 1 * (y 1).val = (y 1).val; omega

theorem iblk1_5 (c : Dev nD) (t : Fin cfg1.N) : (iblk1 V c 5 t : Vec F S1024x256 .f32) = V c main_call0_v36 := by
  obtain ⟨-, -, -, -, -, -, -, -, -, -, e0, e1, -⟩ := idx_facts1 t
  funext y
  show V c main_call0_v36 (((cfg1.win 5).blk t).view.emb y) = V c main_call0_v36 y
  congr 1
  funext a; apply Fin.ext
  match a with
  | ⟨0, _⟩ => show win1_5.index t (0 : Fin 2) * 1024 + 1 * (y 0).val = (y 0).val; omega
  | ⟨1, _⟩ => show win1_5.index t (1 : Fin 2) * 256 + 1 * (y 1).val = (y 1).val; omega

theorem iblk1_6 (c : Dev nD) (t : Fin cfg1.N) : (iblk1 V c 6 t : Vec F S1x256 .f32) = V c main_call0_v37 := by
  obtain ⟨-, -, -, -, -, -, -, -, -, -, -, -, e0, e1, -⟩ := idx_facts1 t
  funext y
  show V c main_call0_v37 (((cfg1.win 6).blk t).view.emb y) = V c main_call0_v37 y
  congr 1
  funext a; apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega

/-! ## The output windows' blocks and their cover -/

/-- Region 0's output block at point `t`, read off any contents of the output array, is their `t`-th row tile. -/
theorem oblk0 (G : Vec F S8192x256 .f32) (t : Fin cfg0.N) :
    (((cfg0.win 4).blk t).view.read (Elt F) G : Vec F S256x256 .f32) = rowsOf G (tile0 t) := by
  obtain ⟨-, -, -, -, -, -, -, -, e0, e1, -⟩ := idx_facts0 t
  funext y
  show G (((cfg0.win 4).blk t).view.emb y) = G _
  congr 1
  funext a; apply Fin.ext
  match a with
  | ⟨0, _⟩ => show win0_4.index t (0 : Fin 2) * 256 + 1 * (y 0).val = t.val * 256 + (y 0).val; omega
  | ⟨1, _⟩ => show win0_4.index t (1 : Fin 2) * 256 + 1 * (y 1).val = (y 1).val; omega

/-- An index of the output array is in point `t`'s block iff each coordinate is in the block's range. -/
theorem mem_oblk0 (t : Fin cfg0.N) (i : S8192x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_call0_v28).slice (win0_4.rect t)).set ↔ _
  rw [View.set_slice_whole, Rect.mem_set_unit]
  exact Iff.rfl

/-- Every row of the output array is in the block of the point `row / 256`, which writes it back. -/
theorem cover0 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 32 := N_0
  refine ⟨⟨(i 0).val / 256, by omega⟩, flush0_4 _, ?_⟩
  obtain ⟨-, -, -, -, -, -, -, -, e0, e1, -⟩ := idx_facts0 ⟨(i 0).val / 256, by omega⟩
  rw [mem_oblk0]
  intro a
  match a with
  | ⟨0, _⟩ => show win0_4.index _ (0 : Fin 2) * 256 ≤ (i 0).val ∧ (i 0).val < win0_4.index _ (0 : Fin 2) * 256 + 256; rw [e0]; show (i 0).val / 256 * 256 ≤ (i 0).val ∧ (i 0).val < (i 0).val / 256 * 256 + 256; omega
  | ⟨1, _⟩ => show win0_4.index _ (1 : Fin 2) * 256 ≤ (i 1).val ∧ (i 1).val < win0_4.index _ (1 : Fin 2) * 256 + 256; rw [e1]; omega

/-- Region 1's output block at point `t`, read off any contents of the output array, is their `t`-th row tile. -/
theorem oblk1 (G : Vec F S8192x256 .f32) (t : Fin cfg1.N) :
    (((cfg1.win 7).blk t).view.read (Elt F) G : Vec F S256x256 .f32) = rowsOf G (tile1 t) := by
  obtain ⟨-, -, -, -, -, -, -, -, -, -, -, -, -, -, e0, e1, -⟩ := idx_facts1 t
  funext y
  show G (((cfg1.win 7).blk t).view.emb y) = G _
  congr 1
  funext a; apply Fin.ext
  match a with
  | ⟨0, _⟩ => show win1_7.index t (0 : Fin 2) * 256 + 1 * (y 0).val = t.val * 256 + (y 0).val; omega
  | ⟨1, _⟩ => show win1_7.index t (1 : Fin 2) * 256 + 1 * (y 1).val = (y 1).val; omega

/-- An index of the output array is in point `t`'s block iff each coordinate is in the block's range. -/
theorem mem_oblk1 (t : Fin cfg1.N) (i : S8192x256.Idx) :
    i ∈ ((cfg1.win 7).blk t).view.set ↔ ∀ a : Fin 2, win1_7.index t a * S256x256.size a ≤ (i a).val ∧ (i a).val < win1_7.index t a * S256x256.size a + S256x256.size a := by
  show i ∈ ((View.whole main_v0).slice (win1_7.rect t)).set ↔ _
  rw [View.set_slice_whole, Rect.mem_set_unit]
  exact Iff.rfl

/-- Every row of the output array is in the block of the point `row / 256`, which writes it back. -/
theorem cover1 (i : S8192x256.Idx) :
    ∃ t : Fin cfg1.N, (cfg1.win 7).flush t = true ∧ i ∈ ((cfg1.win 7).blk t).view.set := by
  have hi0 : (i 0).val < 8192 := (i 0).isLt
  have hi1 : (i 1).val < 256 := (i 1).isLt
  have hN : cfg1.N = 32 := N_1
  refine ⟨⟨(i 0).val / 256, by omega⟩, flush1_7 _, ?_⟩
  obtain ⟨-, -, -, -, -, -, -, -, -, -, -, -, -, -, e0, e1, -⟩ := idx_facts1 ⟨(i 0).val / 256, by omega⟩
  rw [mem_oblk1]
  intro a
  match a with
  | ⟨0, _⟩ => show win1_7.index _ (0 : Fin 2) * 256 ≤ (i 0).val ∧ (i 0).val < win1_7.index _ (0 : Fin 2) * 256 + 256; rw [e0]; show (i 0).val / 256 * 256 ≤ (i 0).val ∧ (i 0).val < (i 0).val / 256 * 256 + 256; omega
  | ⟨1, _⟩ => show win1_7.index _ (1 : Fin 2) * 256 ≤ (i 1).val ∧ (i 1).val < win1_7.index _ (1 : Fin 2) * 256 + 256; rw [e1]; omega

end Cert.RefSide

end
-- ==== Proof.RefTiles.lean ====
/- The reference's two output arrays, tile by tile.

   At point `t` the first region's body leaves the first layer's output on row tile `t` — a function of
   the adjacency's `t`-th row tile, the whole feature array, the tile's own feature rows, the packed weight
   and the bias row — and writes it back to rows `256 t … 256 t + 255` of its output array.  The 32 row tiles
   cover that array, so after the region the array IS the first layer's output, all rows.  The second region
   does the same with the second layer and the final contraction, reading the first layer's output both
   whole (for the aggregation) and by the tile's own rows. -/
import proofs.«170987_g2000006520504415_pallasbulk_218_5_alg».proof.Proof.RefPieces
import proofs.«170987_g2000006520504415_pallasbulk_218_5_alg».proof.Proof.RefBlocks

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

open Cert.Spec

/-- The result array as a function of the arrays the second region reads, the first layer's output `H` among them. -/
def outOf (A : Vec Ideal S8192x8192 .bf16) (H : Vec Ideal S8192x256 .f32) (X : Vec Ideal S8192x512 .f32)
    (w2 : Vec Ideal S512x256 .f32) (b1 : Vec Ideal S1x256 .f32) (wf : Vec Ideal S1024x256 .f32) (bf : Vec Ideal S1x256 .f32) :
    Vec Ideal S8192x256 .f32 :=
  assemble fun t => outTileR (rowsOf A t) H (rowsOf H t) w2 b1 (rowsOf X t) wf bf

theorem OutR_eq_outOf (A : Vec Ideal S8192x8192 .bf16) (X : Vec Ideal S8192x512 .f32) (w1 : Vec Ideal S1024x256 .f32)
    (b0 : Vec Ideal S1x256 .f32) (w2 : Vec Ideal S512x256 .f32) (b1 : Vec Ideal S1x256 .f32) (wf : Vec Ideal S1024x256 .f32)
    (bf : Vec Ideal S1x256 .f32) : OutR A X w1 b0 w2 b1 wf bf = outOf A (H1R A X w1 b0) X w2 b1 wf bf := rfl

variable (V : (c : Dev nD) → (b : Ref sig .tc) → Buf (Elt Ideal) ((c : Thread nD τ).loc b))

/-! ## The first region -/

/-- What the first region's body leaves at point `t`: the first layer's output on row tile `t`. -/
theorem outsAt0_eq (c : Dev nD) (t : Fin cfg0.N) :
    outsAt0 V c t = h1TileR (rowsOf (V c main_call0_v20) (tile0 t)) (V c main_arg0) (rowsOf (V c main_arg0) (tile0 t))
      (V c main_call0_v26) (V c main_call0_v27) := by
  obtain ⟨-, -, -, -, -, -, -, -, -, -, o0, o1⟩ := idx_facts0 t
  unfold outsAt0
  rw [out0_eq, iblk0_0, iblk0_1, iblk0_2, iblk0_3,
    ld_rows (n := 512) (α := Elt Ideal) (e := .f32) (V c main_arg0) (tile0 t) _ _ o0 o1]
  rfl

/-- What point `t` writes back is row tile `t` of the first layer's output. -/
theorem flushed0_eq (c : Dev nD) (t : Fin cfg0.N) :
    (dat0 V c).flushed 4 t = ((cfg0.win 4).blk t).view.read (Elt Ideal)
      (H1R (V c main_call0_v20) (V c main_arg0) (V c main_call0_v26) (V c main_call0_v27)) := by
  show (cfg0.win 4).cut (grid0.coords t) ((dat0 V c).after 4 t) = _
  rw [after0_4, outsAt0_eq, oblk0]
  unfold H1R
  rw [rowsOf_assemble]
  rfl

/-- After the first region its output array holds the first layer's output. -/
theorem arr0_eq (c : Dev nD) : (dat0 V c).arrAt 4 cfg0.N
    = H1R (V c main_call0_v20) (V c main_arg0) (V c main_call0_v26) (V c main_call0_v27) :=
  (dat0 V c).arrAt_eq_of_cover 4 _ (fun t _ => flushed0_eq V c t) cover0

/-! ## The second region -/

/-- What the second region's body leaves at point `t`: the result on row tile `t`. -/
theorem outsAt1_eq (c : Dev nD) (t : Fin cfg1.N) :
    outsAt1 V c t = outTileR (rowsOf (V c main_call0_v20) (tile1 t)) (V c main_call0_v28) (rowsOf (V c main_call0_v28) (tile1 t))
      (V c main_call0_v34) (V c main_call0_v35) (rowsOf (V c main_arg0) (tile1 t)) (V c main_call0_v36) (V c main_call0_v37) := by
  obtain ⟨-, -, -, -, -, -, -, -, -, -, -, -, -, -, -, -, p0, p1, q0, q1⟩ := idx_facts1 t
  unfold outsAt1
  rw [out1_eq, iblk1_0, iblk1_1, iblk1_2, iblk1_3, iblk1_4, iblk1_5, iblk1_6,
    ld_rows (n := 256) (α := Elt Ideal) (e := .f32) (V c main_call0_v28) (tile1 t) _ _ p0 p1,
    ld_rows (n := 512) (α := Elt Ideal) (e := .f32) (V c main_arg0) (tile1 t) _ _ q0 q1]
  rfl

/-- What point `t` writes back is row tile `t` of the result. -/
theorem flushed1_eq (c : Dev nD) (t : Fin cfg1.N) :
    (dat1 V c).flushed 7 t = ((cfg1.win 7).blk t).view.read (Elt Ideal)
      (outOf (V c main_call0_v20) (V c main_call0_v28) (V c main_arg0) (V c main_call0_v34) (V c main_call0_v35)
        (V c main_call0_v36) (V c main_call0_v37)) := by
  show (cfg1.win 7).cut (grid1.coords t) ((dat1 V c).after 7 t) = _
  rw [after1_7, outsAt1_eq, oblk1]
  unfold outOf
  rw [rowsOf_assemble]
  rfl

/-- After the second region its output array holds the result. -/
theorem arr1_eq (c : Dev nD) : (dat1 V c).arrAt 7 cfg1.N
    = outOf (V c main_call0_v20) (V c main_call0_v28) (V c main_arg0) (V c main_call0_v34) (V c main_call0_v35)
        (V c main_call0_v36) (V c main_call0_v37) :=
  (dat1 V c).arrAt_eq_of_cover 7 _ (fun t _ => flushed1_eq V c t) cover1

end Cert.RefSide

end
-- ==== Proof.RefValue.lean ====
/- The reference's result as a function of the arrays its two regions read.

   The result buffer after the second region holds what that region's write-backs leave: the result
   assembled from its 32 row tiles, over the arrays as the second region finds them.  Of those, the
   adjacency and the node features are as the first region found them (no host operation between the
   regions writes them and the first region only reads them), and the first layer's output is what the first
   region's write-backs left: the first layer assembled from its 32 row tiles.  The second layer's weights,
   its bias row, the final weight and the final bias row are prepared between the two regions. -/
import proofs.«170987_g2000006520504415_pallasbulk_218_5_alg».proof.Proof.RefTiles

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

open Cert.Spec

variable (m : (ℓ : Loc nD τ sig) → Buf (Elt Ideal) ℓ) (ρ : Dev nD → PrngReg)

/-- The adjacency is, at the second region's entry, what it was at the first's. -/
theorem V3_v20 (c : Dev nD) : V3 m ρ c main_call0_v20 = V1 m ρ c main_call0_v20 :=
  calc W3 m ρ c (Proc.devRef .tc main_call0_v20)
    _ = W2 m ρ c (Proc.devRef .tc main_call0_v20) := StableHlo.after_of_forall_not_mem (b := Proc.devRef .tc main_call0_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_call0_v20) := (W2_arr m ρ c 1).trans (((dat0 (V1 m ρ) c).arrAt_in 1 rfl _).trans (A_eq0 (V1 m ρ) c 1))

/-- So are the node features. -/
theorem V3_main_arg0 (c : Dev nD) : V3 m ρ c main_arg0 = V1 m ρ c main_arg0 :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))

/-- The first region's output array, at the second region's entry, is the first layer's output. -/
theorem V3_v28 (c : Dev nD) : V3 m ρ c main_call0_v28
    = H1R (V1 m ρ c main_call0_v20) (V1 m ρ c main_arg0) (V1 m ρ c main_call0_v26) (V1 m ρ c main_call0_v27) :=
  calc W3 m ρ c (Proc.devRef .tc main_call0_v28)
    _ = W2 m ρ c (Proc.devRef .tc main_call0_v28) := StableHlo.after_of_forall_not_mem (b := Proc.devRef .tc main_call0_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 4 cfg0.N := W2_arr m ρ c 4
    _ = _ := arr0_eq (V1 m ρ) c

/-- The result buffer after the run, over the arrays the two regions read at their entries. -/
theorem result_eq (c : Dev nD) : Gen.W4 m ρ c (Proc.devRef .tc main_v0)
    = OutR (V1 m ρ c main_call0_v20) (V1 m ρ c main_arg0) (V1 m ρ c main_call0_v26) (V1 m ρ c main_call0_v27)
        (V3 m ρ c main_call0_v34) (V3 m ρ c main_call0_v35) (V3 m ρ c main_call0_v36) (V3 m ρ c main_call0_v37) := by
  have h := (W4_arr m ρ c 7).trans (arr1_eq (V3 m ρ) c)
  rw [V3_v20, V3_v28, V3_main_arg0] at h
  exact h

end Cert.RefSide

end
-- ==== Proof.RefAdjacency.lean ====
/- The adjacency the reference's regions read is the scatter of ones at the edge list's (destination,
   source) pairs, negative node numbers wrapped by the node count, in the 16-bit format: the host
   operations before the first region, composed, applied to the launch's edge list. -/
import proofs.«170987_g2000006520504415_pallasbulk_218_5_alg».proof.Proof.Gen.ReferenceIdeal.Frame
import proofs.«170987_g2000006520504415_pallasbulk_218_5_alg».proof.Proof.HostTerms
import Idealize.ShloMosaic.Lib.StableHlo.Run

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

open Cert.Spec

variable (m : (ℓ : Loc nD τ sig) → Buf (Elt Ideal) ℓ) (ρ : Dev nD → PrngReg)

set_option maxHeartbeats 1000000 in
/-- The adjacency counts, from the edge list. -/
theorem V1_v20 (c : Dev nD) : (V1 m ρ c main_call0_v20 : Vec Ideal S8192x8192 .bf16) = adjOf (m ((c : Thread nD τ).loc main_arg1)) := by
  show StableHlo.after hostOps0 (W0 m ρ c) (Proc.devRef .tc main_call0_v20) = _
  after_results
  rfl

end Cert.RefSide

end
-- ==== Proof.RefWeights.lean ====
/- The weight and bias arrays the reference's regions read, as functions of the launch's arguments.

   Before the first region the host packs the first layer's weight (the difference of its two column halves,
   transposed, over the second half, transposed) and turns its bias into a row; between the regions it does
   the same for the second layer and transposes the final weight.  No host operation and no region writes an
   argument array, so each of these is the composed host operations applied to the launch's contents. -/
import proofs.«170987_g2000006520504415_pallasbulk_218_5_alg».proof.Proof.Gen.ReferenceIdeal.Frame
import proofs.«170987_g2000006520504415_pallasbulk_218_5_alg».proof.Proof.HostTerms
import Idealize.ShloMosaic.Lib.StableHlo.Run

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

open Cert.Spec

variable (m : (ℓ : Loc nD τ sig) → Buf (Elt Ideal) ℓ) (ρ : Dev nD → PrngReg)

/-! ## The arrays prepared before the first region -/

/-- The node features are the launch's. -/
theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

set_option maxHeartbeats 1000000 in
/-- The first layer's packed weight. -/
theorem V1_v26 (c : Dev nD) : (V1 m ρ c main_call0_v26 : Vec Ideal S1024x256 .f32) = w1Of (m ((c : Thread nD τ).loc main_arg2)) := by
  show StableHlo.after hostOps0 (W0 m ρ c) (Proc.devRef .tc main_call0_v26) = _
  after_results
  rfl

set_option maxHeartbeats 1000000 in
/-- The first layer's bias as a row. -/
theorem V1_v27 (c : Dev nD) : (V1 m ρ c main_call0_v27 : Vec Ideal S1x256 .f32) = rowOf (m ((c : Thread nD τ).loc main_arg3)) := by
  show StableHlo.after hostOps0 (W0 m ρ c) (Proc.devRef .tc main_call0_v27) = _
  after_results
  rfl

/-! ## The arrays prepared between the two regions -/

/-- Argument 4 is, after the first region, what it was at launch. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 is, after the first region, what it was at launch. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 is, after the first region, what it was at launch. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument 7 is, after the first region, what it was at launch. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

set_option maxHeartbeats 1000000 in
/-- The second layer's packed weight. -/
theorem V3_v34 (c : Dev nD) : (V3 m ρ c main_call0_v34 : Vec Ideal S512x256 .f32) = w2Of (m ((c : Thread nD τ).loc main_arg4)) := by
  show StableHlo.after hostOps1 (W2 m ρ c) (Proc.devRef .tc main_call0_v34) = _
  after_results
  rw [W2_main_arg4 m ρ c]
  rfl

set_option maxHeartbeats 1000000 in
/-- The second layer's bias as a row. -/
theorem V3_v35 (c : Dev nD) : (V3 m ρ c main_call0_v35 : Vec Ideal S1x256 .f32) = rowOf (m ((c : Thread nD τ).loc main_arg5)) := by
  show StableHlo.after hostOps1 (W2 m ρ c) (Proc.devRef .tc main_call0_v35) = _
  after_results
  rw [W2_main_arg5 m ρ c]
  rfl

set_option maxHeartbeats 1000000 in
/-- The final weight, transposed. -/
theorem V3_v36 (c : Dev nD) : (V3 m ρ c main_call0_v36 : Vec Ideal S1024x256 .f32) = wfOf (m ((c : Thread nD τ).loc main_arg6)) := by
  show StableHlo.after hostOps1 (W2 m ρ c) (Proc.devRef .tc main_call0_v36) = _
  after_results
  rw [W2_main_arg6 m ρ c]
  rfl

set_option maxHeartbeats 1000000 in
/-- The final bias as a row. -/
theorem V3_v37 (c : Dev nD) : (V3 m ρ c main_call0_v37 : Vec Ideal S1x256 .f32) = rowOf (m ((c : Thread nD τ).loc main_arg7)) := by
  show StableHlo.after hostOps1 (W2 m ρ c) (Proc.devRef .tc main_call0_v37) = _
  after_results
  rw [W2_main_arg7 m ρ c]
  rfl

end Cert.RefSide

end
-- ==== Proof.RefResult.lean ====
/- The reference's run, read: every weakly fair execution terminates without a fault with the result
   array at the two-layer edge convolution of the launch's arguments — in the arrangement that adds the
   contractions of the parts — and with every argument array as launched. -/
import proofs.«170987_g2000006520504415_pallasbulk_218_5_alg».proof.Proof.RefRun
import proofs.«170987_g2000006520504415_pallasbulk_218_5_alg».proof.Proof.RefValue
import proofs.«170987_g2000006520504415_pallasbulk_218_5_alg».proof.Proof.RefAdjacency
import proofs.«170987_g2000006520504415_pallasbulk_218_5_alg».proof.Proof.RefWeights

set_option maxRecDepth 16384

noncomputable section

namespace Cert.RefSide

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]

open Cert.Spec

variable (m : (ℓ : Loc nD τ sig) → Buf (Elt Ideal) ℓ) (ρ : Dev nD → PrngReg)

/-- The result buffer after the run, as a function of the launch's arguments. -/
theorem result_args (c : Dev nD) : Gen.W4 m ρ c (Proc.devRef .tc main_v0)
    = OutR (adjOf (m ((c.tc : Thread nD τ).loc main_arg1))) (m ((c.tc : Thread nD τ).loc main_arg0)) (w1Of (m ((c.tc : Thread nD τ).loc main_arg2))) (rowOf (m ((c.tc : Thread nD τ).loc main_arg3)))
        (w2Of (m ((c.tc : Thread nD τ).loc main_arg4))) (rowOf (m ((c.tc : Thread nD τ).loc main_arg5))) (wfOf (m ((c.tc : Thread nD τ).loc main_arg6))) (rowOf (m ((c.tc : Thread nD τ).loc main_arg7))) := by
  rw [result_eq, V1_v20, V1_main_arg0, V1_v26, V1_v27, V3_v34, V3_v35, V3_v36, V3_v37]

/-- The reference's run with its result read. -/
theorem value : θ_run defs (onTc (τ := τ) (main (F := Ideal))) ⟨m, fun _ => 0, ρ⟩ (fun r => ∀ c : Dev nD,
      r.2.mem ((c.tc : Thread nD τ).loc main_v0)
        = OutR (adjOf (m ((c.tc : Thread nD τ).loc main_arg1))) (m ((c.tc : Thread nD τ).loc main_arg0)) (w1Of (m ((c.tc : Thread nD τ).loc main_arg2))) (rowOf (m ((c.tc : Thread nD τ).loc main_arg3)))
            (w2Of (m ((c.tc : Thread nD τ).loc main_arg4))) (rowOf (m ((c.tc : Thread nD τ).loc main_arg5))) (wfOf (m ((c.tc : Thread nD τ).loc main_arg6))) (rowOf (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_args m ρ c), (h c).2⟩) (run_named m ρ)

end Cert.RefSide

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.JoinedContraction.lean ====
import proofs.«170987_g2000006520504415_pallasbulk_218_5_alg».proof.Proof.LibSplitContraction
import Idealize.ShloMosaic.Lib.Pipeline.Value

/-!
  Contractions over a joined axis, piece by piece.

  A matrix product whose left operand is a row-wise concatenation `[a ‖ g]` (or `[a ‖ g ‖ h]`) is the sum of the
  products of the pieces against the corresponding row-slices of the right operand: the contracted axis of length
  `p + q` splits into its first `p` and last `q` positions, and a finite sum over the joined range is the sum of
  the two partial sums. Only commutative-monoid facts about `+` are used, so the statements hold on the extended
  reals without any finiteness hypothesis.
-/

noncomputable section

namespace Cert.Bridge

open Idealize.ShloMosaic Idealize.ShloMosaic.ValueIdx Cert.Lib.SplitContraction

/-- The dimension record of a plain matrix product: the left operand's columns are contracted with the right
    operand's rows, the result's axes are the left rows and the right columns, and there is no batch axis. -/
def IsPlain {n K d : Nat} (D : DotDims ⟨2, ![n, K]⟩ ⟨2, ![K, d]⟩ ⟨2, ![n, d]⟩) : Prop :=
  D.lhsContracting = [1] ∧ D.rhsContracting = [0] ∧ D.lhsNonContracting = [0] ∧ D.rhsNonContracting = [1] ∧
    D.lhsBatch = [] ∧ D.rhsBatch = []

/-- A plain matrix product into the zero accumulator, read at entry (r, c): the sum over the contracted axis. -/
theorem matmul_plain_at {n K d : Nat} {φ₁ φ₂ : FTy}
    (D : DotDims ⟨2, ![n, K]⟩ ⟨2, ![K, d]⟩ ⟨2, ![n, d]⟩) (hD : IsPlain D)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  obtain ⟨hLC, hRC, hLN, hRN, hLB, hRB⟩ := hD
  obtain ⟨lc, rc, ln, rn, lb, rb, wf⟩ := D
  simp only at hLC hRC hLN hRN hLB hRB
  subst hLC hRC hLN hRN hLB hRB
  refine matmul_zero_at _ rfl rfl ?_ ?_ ?_ ?_ prec lhs rhs r c
  · intro j q; simp [DotDims.lhsIdx]; rfl
  · intro j q; exact DotDims.lhsIdx_val_of_single _ rfl j q
  · intro j q; exact DotDims.rhsIdx_val_of_single _ rfl j q
  · intro j q; simp [DotDims.rhsIdx]; rfl

/-- A load of `p` consecutive rows of a matrix, from row `off`, read at entry (k, c): the matrix at row `off + k`. -/
theorem ld_rows {N p d : Nat} {e : EltTy} {Val : EltTy → Type} (w : (⟨2, ![N, d]⟩ : Shape).Idx → Val e) (off : Nat)
    (inb : ∀ a, (![off, 0] : Fin 2 → Nat) a + (⟨2, ![p, d]⟩ : Shape).size a ≤ (⟨2, ![N, d]⟩ : Shape).size a)
    (k : Fin p) (c : Fin d) (i : Fin N) (hi : i.val = off + k.val) :
    View.ld w (Rect.unit (s := ⟨2, ![N, d]⟩) ![off, 0] (⟨2, ![p, d]⟩ : Shape).size inb) (ix2 k c) = w (ix2 i c) := by
  show w _ = w _
  refine congrArg w (funext fun a => Fin.ext ?_)
  match a with
  | ⟨0, _⟩ => show off + 1 * k.val = i.val; omega
  | ⟨1, _⟩ => show 0 + 1 * c.val = c.val; omega

/-- TWO PIECES. The product of `[a ‖ g]` with `w` is the product of `a` with the first `p` rows of `w` plus the
    product of `g` with the last `q` rows. -/
theorem matmul_concat2 {n p q K d : Nat} (hK : p + q = K)
    (D : DotDims ⟨2, ![n, K]⟩ ⟨2, ![K, d]⟩ ⟨2, ![n, d]⟩) (hD : IsPlain D)
    (Dp : DotDims ⟨2, ![n, p]⟩ ⟨2, ![p, d]⟩ ⟨2, ![n, d]⟩) (hDp : IsPlain Dp)
    (Dq : DotDims ⟨2, ![n, q]⟩ ⟨2, ![q, d]⟩ ⟨2, ![n, d]⟩) (hDq : IsPlain Dq)
    (prec : Option ContractPrecision)
    (a : FVec Ideal ⟨2, ![n, p]⟩ .f32) (g : FVec Ideal ⟨2, ![n, q]⟩ .f32)
    (hc : Shape.Concatenates [(⟨2, ![n, p]⟩ : Shape), ⟨2, ![n, q]⟩] ⟨2, ![n, K]⟩ 1)
    (w : FVec Ideal ⟨2, ![K, d]⟩ .f32) (wt : FVec Ideal ⟨2, ![p, d]⟩ .f32) (wb : FVec Ideal ⟨2, ![q, d]⟩ .f32)
    (ht : ∀ (k : Fin p) (c : Fin d), wt (ix2 k c) = w (ix2 (Fin.cast hK (Fin.castAdd q k)) c))
    (hb : ∀ (k : Fin q) (c : Fin d), wb (ix2 k c) = w (ix2 (Fin.cast hK (Fin.natAdd p k)) c)) :
    FloatOps.matmul D prec (concatenate (⟨2, ![n, K]⟩ : Shape) 1 [⟨⟨2, ![n, p]⟩, a⟩, ⟨⟨2, ![n, q]⟩, g⟩] hc) w
        (constant (F := Ideal) ⟨2, ![n, d]⟩ .f32 0x00000000#32)
      = addf (FloatOps.matmul Dp prec a wt (constant (F := Ideal) ⟨2, ![n, d]⟩ .f32 0x00000000#32))
          (FloatOps.matmul Dq prec g wb (constant (F := Ideal) ⟨2, ![n, d]⟩ .f32 0x00000000#32)) := by
  subst hK
  funext j
  obtain ⟨r, c, rfl⟩ : ∃ (r : Fin n) (c : Fin d), j = ix2 r c := ⟨j 0, j 1, eq_ix2 j⟩
  refine (matmul_plain_at D hD prec _ w r c).trans ?_
  refine Eq.trans ?_ (congrArg₂ (· + ·) (matmul_plain_at Dp hDp prec a wt r c) (matmul_plain_at Dq hDq prec g wb r c)).symm
  refine sum_joined p q _ _ _ (fun k => ?_) (fun k => ?_)
  · refine congrArg₂ (· * ·) ?_ (ht k c).symm
    exact concatenate_pair_apply_left 1 a g hc (ix2 r (Fin.castAdd q k)) rfl (ix2 r k)
      (fun b => match b with | ⟨0, _⟩ => rfl | ⟨1, _⟩ => rfl)
  · refine congrArg₂ (· * ·) ?_ (hb k c).symm
    exact concatenate_pair_apply_right 1 a g hc (ix2 r (Fin.natAdd p k)) rfl rfl (ix2 r k)
      (fun b hb => match b, hb with | ⟨0, _⟩, _ => rfl | ⟨1, _⟩, hb => absurd rfl hb)
      (Nat.add_comm _ _)

/-- THREE PIECES. The product of `[a ‖ g ‖ h]` with `w` is the sum of the three products of the pieces with the
    corresponding row-slices of `w` (rows `[0, p)`, `[p, p + q)`, `[p + q, p + q + s)`). -/
theorem matmul_concat3 {n p q s K d : Nat} (hK : p + q + s = K)
    (D : DotDims ⟨2, ![n, K]⟩ ⟨2, ![K, d]⟩ ⟨2, ![n, d]⟩) (hD : IsPlain D)
    (Dp : DotDims ⟨2, ![n, p]⟩ ⟨2, ![p, d]⟩ ⟨2, ![n, d]⟩) (hDp : IsPlain Dp)
    (Dq : DotDims ⟨2, ![n, q]⟩ ⟨2, ![q, d]⟩ ⟨2, ![n, d]⟩) (hDq : IsPlain Dq)
    (Ds : DotDims ⟨2, ![n, s]⟩ ⟨2, ![s, d]⟩ ⟨2, ![n, d]⟩) (hDs : IsPlain Ds)
    (prec : Option ContractPrecision)
    (a : FVec Ideal ⟨2, ![n, p]⟩ .f32) (g : FVec Ideal ⟨2, ![n, q]⟩ .f32) (h : FVec Ideal ⟨2, ![n, s]⟩ .f32)
    (hc : Shape.Concatenates [(⟨2, ![n, p]⟩ : Shape), ⟨2, ![n, q]⟩, ⟨2, ![n, s]⟩] ⟨2, ![n, K]⟩ 1)
    (w : FVec Ideal ⟨2, ![K, d]⟩ .f32) (w0 : FVec Ideal ⟨2, ![p, d]⟩ .f32) (w1 : FVec Ideal ⟨2, ![q, d]⟩ .f32)
    (w2 : FVec Ideal ⟨2, ![s, d]⟩ .f32)
    (h0 : ∀ (k : Fin p) (c : Fin d), w0 (ix2 k c) = w (ix2 (Fin.cast hK (Fin.castAdd s (Fin.castAdd q k))) c))
    (h1 : ∀ (k : Fin q) (c : Fin d), w1 (ix2 k c) = w (ix2 (Fin.cast hK (Fin.castAdd s (Fin.natAdd p k))) c))
    (h2 : ∀ (k : Fin s) (c : Fin d), w2 (ix2 k c) = w (ix2 (Fin.cast hK (Fin.natAdd (p + q) k)) c)) :
    FloatOps.matmul D prec
        (concatenate (⟨2, ![n, K]⟩ : Shape) 1 [⟨⟨2, ![n, p]⟩, a⟩, ⟨⟨2, ![n, q]⟩, g⟩, ⟨⟨2, ![n, s]⟩, h⟩] hc) w
        (constant (F := Ideal) ⟨2, ![n, d]⟩ .f32 0x00000000#32)
      = addf (addf (FloatOps.matmul Dp prec a w0 (constant (F := Ideal) ⟨2, ![n, d]⟩ .f32 0x00000000#32))
            (FloatOps.matmul Dq prec g w1 (constant (F := Ideal) ⟨2, ![n, d]⟩ .f32 0x00000000#32)))
          (FloatOps.matmul Ds prec h w2 (constant (F := Ideal) ⟨2, ![n, d]⟩ .f32 0x00000000#32)) := by
  subst hK
  funext j
  obtain ⟨r, c, rfl⟩ : ∃ (r : Fin n) (c : Fin d), j = ix2 r c := ⟨j 0, j 1, eq_ix2 j⟩
  refine (matmul_plain_at D hD prec _ w r c).trans ?_
  refine Eq.trans ?_ (congrArg₂ (· + ·) (congrArg₂ (· + ·) (matmul_plain_at Dp hDp prec a w0 r c)
    (matmul_plain_at Dq hDq prec g w1 r c)) (matmul_plain_at Ds hDs prec h w2 r c)).symm
  rw [Fin.sum_univ_add]
  refine congrArg₂ (· + ·) (sum_joined p q _ _ _ (fun k => ?_) (fun k => ?_)) (Finset.sum_congr rfl fun k _ => ?_)
  · refine congrArg₂ (· * ·) ?_ (h0 k c).symm
    exact concatenate_apply_piece 1 [⟨⟨2, ![n, p]⟩, a⟩, ⟨⟨2, ![n, q]⟩, g⟩, ⟨⟨2, ![n, s]⟩, h⟩] hc
      (ix2 r (Fin.castAdd s (Fin.castAdd q k))) 0 (by simp) ⟨2, ![n, p]⟩ a rfl rfl 0 rfl (ix2 r k)
      (fun b hb => match b, hb with | ⟨0, _⟩, _ => rfl | ⟨1, _⟩, hb => absurd rfl hb)
      (Nat.zero_add _)
  · refine congrArg₂ (· * ·) ?_ (h1 k c).symm
    exact concatenate_apply_piece 1 [⟨⟨2, ![n, p]⟩, a⟩, ⟨⟨2, ![n, q]⟩, g⟩, ⟨⟨2, ![n, s]⟩, h⟩] hc
      (ix2 r (Fin.castAdd s (Fin.natAdd p k))) 1 (by simp) ⟨2, ![n, q]⟩ g rfl rfl p (by simp) (ix2 r k)
      (fun b hb => match b, hb with | ⟨0, _⟩, _ => rfl | ⟨1, _⟩, hb => absurd rfl hb)
      rfl
  · refine congrArg₂ (· * ·) ?_ (h2 k c).symm
    exact concatenate_apply_piece 1 [⟨⟨2, ![n, p]⟩, a⟩, ⟨⟨2, ![n, q]⟩, g⟩, ⟨⟨2, ![n, s]⟩, h⟩] hc
      (ix2 r (Fin.natAdd (p + q) k)) 2 (by simp) ⟨2, ![n, s]⟩ h rfl rfl (p + q) (by simp) (ix2 r k)
      (fun b hb => match b, hb with | ⟨0, _⟩, _ => rfl | ⟨1, _⟩, hb => absurd rfl hb)
      rfl

end Cert.Bridge

end
-- ==== Proof.Layer1.lean ====
import proofs.«170987_g2000006520504415_pallasbulk_218_5_alg».proof.Proof.Spec
import proofs.«170987_g2000006520504415_pallasbulk_218_5_alg».proof.Proof.JoinedContraction

/-!
  The first layer on one row tile, in its two arrangements.

  Both arrangements compute `relu(P + b) · mask` from a pre-activation `P` ([256, 256]); the bias row, the zero of
  the relu and the mask column (`[deg > 0]`, from the row sums of the adjacency tile) are the same terms on both
  sides. They differ in `P` only: one contracts the concatenation `[x_dst ‖ agg]` ([256, 1024]) with the whole packed
  weight, the other adds `x_dst · w[0:512]` and `agg · w[512:1024]`; and in `agg = (adj · X) · inv` the first reads
  a reformatted copy of `X`, which at the extended reals is `X` itself.
-/

noncomputable section

namespace Cert.Bridge

open Idealize.ShloMosaic Idealize.ShloMosaic.ValueIdx
open Cert.KernelIdeal Cert.Spec

/-! ## The dimension records are plain matrix products -/

theorem plainK_8192x512 : IsPlain Cert.KernelIdeal.dot_S256x8192_S8192x512_S256x512_1_0_0_1_n_n := ⟨rfl, rfl, rfl, rfl, rfl, rfl⟩
theorem plainK_1024 : IsPlain Cert.KernelIdeal.dot_S256x1024_S1024x256_S256x256_1_0_0_1_n_n := ⟨rfl, rfl, rfl, rfl, rfl, rfl⟩
theorem plainR_8192x512 : IsPlain Cert.ReferenceIdeal.dot_S256x8192_S8192x512_S256x512_1_0_0_1_n_n := ⟨rfl, rfl, rfl, rfl, rfl, rfl⟩
theorem plainR_512 : IsPlain Cert.ReferenceIdeal.dot_S256x512_S512x256_S256x256_1_0_0_1_n_n := ⟨rfl, rfl, rfl, rfl, rfl, rfl⟩

/-! ## The shared tail and the two aggregations -/

/-- Bias row added to every row, then the relu. -/
def biasRelu (pre : FVec Ideal S256x256 .f32) (b : Vec Ideal S1x256 .f32) : FVec Ideal S256x256 .f32 :=
  maximumf (addf pre (broadcastTo S256x256 (shapeCast S1x256 b (by decide)) (by decide)))
    (broadcast S256x256 (Scalar.ofBits .f32 0x00000000#32 : Ideal .f32))

/-- The mean aggregation of a row tile, `(adj · Xb) · inv`, reading the reformatted copy of the features. -/
def agg1K (adj : Vec Ideal S256x8192 .bf16) (xb : Vec Ideal S8192x512 .bf16) : FVec Ideal S256x512 .f32 :=
  mulf (matmul (φ₁ := .bf16) (φ₂ := .bf16) Cert.KernelIdeal.dot_S256x8192_S8192x512_S256x512_1_0_0_1_n_n none
      (shapeCast S256x8192 adj (by decide)) (shapeCast S8192x512 xb (by decide)) (constant S256x512 .f32 0x00000000#32))
    (broadcastTo S256x512 (invTile adj) (by decide))

/-- The mean aggregation of a row tile, `(adj · X) · inv`, reading the features themselves. -/
def agg1R (adj : Vec Ideal S256x8192 .bf16) (x : Vec Ideal S8192x512 .f32) : FVec Ideal S256x512 .f32 :=
  mulf (matmul (φ₁ := .f32) (φ₂ := .f32) Cert.ReferenceIdeal.dot_S256x8192_S8192x512_S256x512_1_0_0_1_n_n none
      (extf (φ := .bf16) .f32 (shapeCast S256x8192 adj (by decide)) (by decide)) x (constant S256x512 .f32 0x00000000#32))
    (broadcastTo S256x512 (invTile adj) (by decide))

/-- The concatenated arrangement of the first layer's tile, in terms of the shared tail. -/
theorem h1TileK_form (adj : Vec Ideal S256x8192 .bf16) (xb : Vec Ideal S8192x512 .bf16) (xd : Vec Ideal S256x512 .f32)
    (w : Vec Ideal S1024x256 .f32) (b : Vec Ideal S1x256 .f32) :
    h1TileK adj xb xd w b
      = mulf (biasRelu (matmul (φ₁ := .f32) (φ₂ := .f32) Cert.KernelIdeal.dot_S256x1024_S1024x256_S256x256_1_0_0_1_n_n none
            (concatenate S256x1024 1 [⟨S256x512, xd⟩, ⟨S256x512, agg1K adj xb⟩] Cert.KernelIdeal.Gen.concatenates_S256x512_S256x512_S256x1024_d1)
            (shapeCast S1024x256 w (by decide)) (constant S256x256 .f32 0x00000000#32)) b)
          (broadcastTo S256x256 (mskTile adj) (by decide)) := rfl

/-- The split arrangement of the first layer's tile, in terms of the shared tail. -/
theorem h1TileR_form (adj : Vec Ideal S256x8192 .bf16) (x : Vec Ideal S8192x512 .f32) (xd : Vec Ideal S256x512 .f32)
    (w : Vec Ideal S1024x256 .f32) (b : Vec Ideal S1x256 .f32) :
    h1TileR adj x xd w b
      = mulf (biasRelu (addf
            (matmul (φ₁ := .f32) (φ₂ := .f32) Cert.ReferenceIdeal.dot_S256x512_S512x256_S256x256_1_0_0_1_n_n none xd
              (shapeCast (s := S512x256) S512x256 (View.ld w (rect1024_512 0 (by decide))) (by decide)) (constant S256x256 .f32 0x00000000#32))
            (matmul (φ₁ := .f32) (φ₂ := .f32) Cert.ReferenceIdeal.dot_S256x512_S512x256_S256x256_1_0_0_1_n_n none (agg1R adj x)
              (shapeCast (s := S512x256) S512x256 (View.ld w (rect1024_512 512 (by decide))) (by decide)) (constant S256x256 .f32 0x00000000#32))) b)
          (broadcastTo S256x256 (mskTile adj) (by decide)) := rfl

/-- The two aggregations agree when the reformatted copy holds the same numbers. -/
theorem agg1K_eq_agg1R (adj : Vec Ideal S256x8192 .bf16) (xb : Vec Ideal S8192x512 .bf16) (x : Vec Ideal S8192x512 .f32)
    (hx : ∀ i, xb i = x i) : agg1K adj xb = agg1R adj x := by
  unfold agg1K agg1R
  refine congrArg (fun M : FVec Ideal S256x512 .f32 => mulf M (broadcastTo S256x512 (invTile adj) Cert.KernelIdeal.Gen.broadcasts_S256x1_S256x512)) ?_
  simp only [shapeCast_self]
  funext j
  obtain ⟨r, c, rfl⟩ : ∃ (r : Fin 256) (c : Fin 512), j = ix2 r c := ⟨j 0, j 1, eq_ix2 j⟩
  refine (matmul_plain_at (φ₁ := .bf16) (φ₂ := .bf16) _ plainK_8192x512 none adj xb r c).trans
    (Eq.trans ?_ (matmul_plain_at (φ₁ := .f32) (φ₂ := .f32) _ plainR_8192x512 none _ x r c).symm)
  exact Finset.sum_congr rfl fun k _ => by rw [hx]; rfl

/-- LAYER 1 ON A TILE: the concatenated and the split arrangements give the same tile. -/
theorem h1Tile_eq (adj : Vec Ideal S256x8192 .bf16) (xb : Vec Ideal S8192x512 .bf16) (x : Vec Ideal S8192x512 .f32)
    (xd : Vec Ideal S256x512 .f32) (w : Vec Ideal S1024x256 .f32) (b : Vec Ideal S1x256 .f32)
    (hx : ∀ i, xb i = x i) : h1TileK adj xb xd w b = h1TileR adj x xd w b := by
  rw [h1TileK_form, h1TileR_form, agg1K_eq_agg1R adj xb x hx]
  refine congrArg (fun P : FVec Ideal S256x256 .f32 => mulf (biasRelu P b) (broadcastTo S256x256 (mskTile adj) Cert.KernelIdeal.Gen.broadcasts_S256x1_S256x256)) ?_
  simp only [shapeCast_self]
  exact matmul_concat2 (p := 512) (q := 512) (hK := rfl) _ plainK_1024 _ plainR_512 _ plainR_512 none xd (agg1R adj x) _ w _ _
    (fun k c => ld_rows w 0 _ k c _ (by simp <;> omega))
    (fun k c => ld_rows w 512 _ k c _ (by simp <;> omega))

end Cert.Bridge

end
-- ==== Proof.Layer2.lean ====
import proofs.«170987_g2000006520504415_pallasbulk_218_5_alg».proof.Proof.Layer1

/-!
  The second layer and the final linear map on one row tile, in their two arrangements.

  The second layer has the first layer's shape with 256 input channels: `h2 = relu(P + b1) · mask` with
  `P = [h1_dst ‖ agg] · w2` on one side and `h1_dst · w2[0:256] + agg · w2[256:512]` on the other, where
  `agg = (adj · H1) · inv`. One side is handed the inverse degree and the mask of the tile as values; the other
  recomputes them from the adjacency tile by the same operations, so with those values the two are the same terms.
  The result is `[x_dst ‖ h1_dst ‖ h2] · wf + bf` on one side and
  `x_dst · wf[0:512] + h1_dst · wf[512:768] + h2 · wf[768:1024] + bf` on the other.
-/

noncomputable section

namespace Cert.Bridge

open Idealize.ShloMosaic Idealize.ShloMosaic.ValueIdx
open Cert.KernelIdeal Cert.Spec

/-! ## The dimension records are plain matrix products -/

theorem plainK_8192x256 : IsPlain Cert.KernelIdeal.dot_S256x8192_S8192x256_S256x256_1_0_0_1_n_n := ⟨rfl, rfl, rfl, rfl, rfl, rfl⟩
theorem plainK_512 : IsPlain Cert.KernelIdeal.dot_S256x512_S512x256_S256x256_1_0_0_1_n_n := ⟨rfl, rfl, rfl, rfl, rfl, rfl⟩
theorem plainR_8192x256 : IsPlain Cert.ReferenceIdeal.dot_S256x8192_S8192x256_S256x256_1_0_0_1_n_n := ⟨rfl, rfl, rfl, rfl, rfl, rfl⟩
theorem plainR_256 : IsPlain Cert.ReferenceIdeal.dot_S256x256_S256x256_S256x256_1_0_0_1_n_n := ⟨rfl, rfl, rfl, rfl, rfl, rfl⟩

/-! ## The two aggregations and the two second-layer tiles -/

/-- The mean aggregation of a row tile over the first layer's output, reading its reformatted copy. -/
def agg2K (adj : Vec Ideal S256x8192 .bf16) (h1b : Vec Ideal S8192x256 .bf16) : FVec Ideal S256x256 .f32 :=
  mulf (matmul (φ₁ := .bf16) (φ₂ := .bf16) Cert.KernelIdeal.dot_S256x8192_S8192x256_S256x256_1_0_0_1_n_n none
      (shapeCast S256x8192 adj (by decide)) (shapeCast S8192x256 h1b (by decide)) (constant S256x256 .f32 0x00000000#32))
    (broadcastTo S256x256 (shapeCast S256x1 (invTile adj) (by decide)) (by decide))

/-- The mean aggregation of a row tile over the first layer's output itself. -/
def agg2R (adj : Vec Ideal S256x8192 .bf16) (h1 : Vec Ideal S8192x256 .f32) : FVec Ideal S256x256 .f32 :=
  mulf (matmul (φ₁ := .f32) (φ₂ := .f32) Cert.ReferenceIdeal.dot_S256x8192_S8192x256_S256x256_1_0_0_1_n_n none
      (extf (φ := .bf16) .f32 (shapeCast S256x8192 adj (by decide)) (by decide)) (shapeCast S8192x256 h1 (by decide))
      (constant S256x256 .f32 0x00000000#32))
    (broadcastTo S256x256 (invTile adj) (by decide))

/-- The second layer's tile, concatenated arrangement. -/
def h2K (adj : Vec Ideal S256x8192 .bf16) (h1b : Vec Ideal S8192x256 .bf16) (h1d : Vec Ideal S256x256 .f32)
    (w2 : Vec Ideal S512x256 .f32) (b1 : Vec Ideal S1x256 .f32) : FVec Ideal S256x256 .f32 :=
  mulf (biasRelu (matmul (φ₁ := .f32) (φ₂ := .f32) Cert.KernelIdeal.dot_S256x512_S512x256_S256x256_1_0_0_1_n_n none
        (concatenate S256x512 1 [⟨S256x256, shapeCast S256x256 h1d (by decide)⟩, ⟨S256x256, agg2K adj h1b⟩]
          Cert.KernelIdeal.Gen.concatenates_S256x256_S256x256_S256x512_d1)
        (shapeCast S512x256 w2 (by decide)) (constant S256x256 .f32 0x00000000#32)) b1)
    (broadcastTo S256x256 (shapeCast S256x1 (mskTile adj) (by decide)) (by decide))

/-- The second layer's tile, split arrangement. -/
def h2R (adj : Vec Ideal S256x8192 .bf16) (h1 : Vec Ideal S8192x256 .f32) (h1d : Vec Ideal S256x256 .f32)
    (w2 : Vec Ideal S512x256 .f32) (b1 : Vec Ideal S1x256 .f32) : FVec Ideal S256x256 .f32 :=
  mulf (biasRelu (addf
        (matmul (φ₁ := .f32) (φ₂ := .f32) Cert.ReferenceIdeal.dot_S256x256_S256x256_S256x256_1_0_0_1_n_n none
          (shapeCast S256x256 h1d (by decide))
          (shapeCast (s := S256x256) S256x256 (View.ld w2 (rect512_256 0 (by decide))) (by decide)) (constant S256x256 .f32 0x00000000#32))
        (matmul (φ₁ := .f32) (φ₂ := .f32) Cert.ReferenceIdeal.dot_S256x256_S256x256_S256x256_1_0_0_1_n_n none
          (agg2R adj h1)
          (shapeCast (s := S256x256) S256x256 (View.ld w2 (rect512_256 256 (by decide))) (by decide)) (constant S256x256 .f32 0x00000000#32))) b1)
    (broadcastTo S256x256 (mskTile adj) (by decide))

/-- The concatenated arrangement of the result tile, over the second layer's tile. -/
theorem outTileK_form (adj : Vec Ideal S256x8192 .bf16) (h1b : Vec Ideal S8192x256 .bf16) (h1d : Vec Ideal S256x256 .f32)
    (w2 : Vec Ideal S512x256 .f32) (b1 : Vec Ideal S1x256 .f32) (xd : Vec Ideal S256x512 .f32)
    (wf : Vec Ideal S1024x256 .f32) (bf : Vec Ideal S1x256 .f32) :
    outTileK adj h1b (invTile adj) h1d w2 b1 (mskTile adj) xd wf bf
      = addf (matmul (φ₁ := .f32) (φ₂ := .f32) Cert.KernelIdeal.dot_S256x1024_S1024x256_S256x256_1_0_0_1_n_n none
            (concatenate S256x1024 1
              [⟨S256x512, xd⟩, ⟨S256x256, shapeCast S256x256 h1d (by decide)⟩, ⟨S256x256, h2K adj h1b h1d w2 b1⟩]
              Cert.KernelIdeal.Gen.concatenates_S256x512_S256x256_S256x256_S256x1024_d1)
            (shapeCast S1024x256 wf (by decide)) (constant S256x256 .f32 0x00000000#32))
          (broadcastTo S256x256 (shapeCast S1x256 bf (by decide)) (by decide)) := rfl

/-- The split arrangement of the result tile, over the second layer's tile. -/
theorem outTileR_form (adj : Vec Ideal S256x8192 .bf16) (h1 : Vec Ideal S8192x256 .f32) (h1d : Vec Ideal S256x256 .f32)
    (w2 : Vec Ideal S512x256 .f32) (b1 : Vec Ideal S1x256 .f32) (xd : Vec Ideal S256x512 .f32)
    (wf : Vec Ideal S1024x256 .f32) (bf : Vec Ideal S1x256 .f32) :
    outTileR adj h1 h1d w2 b1 xd wf bf
      = addf (addf (addf
            (matmul (φ₁ := .f32) (φ₂ := .f32) Cert.ReferenceIdeal.dot_S256x512_S512x256_S256x256_1_0_0_1_n_n none xd
              (shapeCast (s := S512x256) S512x256 (View.ld wf (rect1024_512 0 (by decide))) (by decide)) (constant S256x256 .f32 0x00000000#32))
            (matmul (φ₁ := .f32) (φ₂ := .f32) Cert.ReferenceIdeal.dot_S256x256_S256x256_S256x256_1_0_0_1_n_n none
              (shapeCast S256x256 h1d (by decide))
              (shapeCast (s := S256x256) S256x256 (View.ld wf (rect1024_256 512 (by decide))) (by decide)) (constant S256x256 .f32 0x00000000#32)))
            (matmul (φ₁ := .f32) (φ₂ := .f32) Cert.ReferenceIdeal.dot_S256x256_S256x256_S256x256_1_0_0_1_n_n none
              (h2R adj h1 h1d w2 b1)
              (shapeCast (s := S256x256) S256x256 (View.ld wf (rect1024_256 768 (by decide))) (by decide)) (constant S256x256 .f32 0x00000000#32)))
          (broadcastTo S256x256 (shapeCast S1x256 bf (by decide)) (by decide)) := rfl

/-- The two aggregations agree when the reformatted copy holds the same numbers. -/
theorem agg2K_eq_agg2R (adj : Vec Ideal S256x8192 .bf16) (h1b : Vec Ideal S8192x256 .bf16) (h1 : Vec Ideal S8192x256 .f32)
    (hh : ∀ i, h1b i = h1 i) : agg2K adj h1b = agg2R adj h1 := by
  unfold agg2K agg2R
  simp only [shapeCast_self]
  refine congrArg (fun M : FVec Ideal S256x256 .f32 => mulf M (broadcastTo S256x256 (invTile adj) Cert.KernelIdeal.Gen.broadcasts_S256x1_S256x256)) ?_
  funext j
  obtain ⟨r, c, rfl⟩ : ∃ (r : Fin 256) (c : Fin 256), j = ix2 r c := ⟨j 0, j 1, eq_ix2 j⟩
  refine (matmul_plain_at (φ₁ := .bf16) (φ₂ := .bf16) _ plainK_8192x256 none adj h1b r c).trans
    (Eq.trans ?_ (matmul_plain_at (φ₁ := .f32) (φ₂ := .f32) _ plainR_8192x256 none _ h1 r c).symm)
  exact Finset.sum_congr rfl fun k _ => by rw [hh]; rfl

/-- LAYER 2 ON A TILE: the concatenated and the split arrangements give the same tile. -/
theorem h2K_eq_h2R (adj : Vec Ideal S256x8192 .bf16) (h1b : Vec Ideal S8192x256 .bf16) (h1 : Vec Ideal S8192x256 .f32)
    (h1d : Vec Ideal S256x256 .f32) (w2 : Vec Ideal S512x256 .f32) (b1 : Vec Ideal S1x256 .f32)
    (hh : ∀ i, h1b i = h1 i) : h2K adj h1b h1d w2 b1 = h2R adj h1 h1d w2 b1 := by
  unfold h2K h2R
  rw [agg2K_eq_agg2R adj h1b h1 hh]
  simp only [shapeCast_self]
  rw [shapeCast_self h1d]
  refine congrArg (fun P : FVec Ideal S256x256 .f32 => mulf (biasRelu P b1) (broadcastTo S256x256 (mskTile adj) Cert.KernelIdeal.Gen.broadcasts_S256x1_S256x256)) ?_
  exact matmul_concat2 (p := 256) (q := 256) (K := 512) (hK := rfl) _ plainK_512 _ plainR_256 _ plainR_256 none h1d (agg2R adj h1) _ w2 _ _
    (fun k c => ld_rows w2 0 _ k c _ (by simp <;> omega))
    (fun k c => ld_rows w2 256 _ k c _ (by simp <;> omega))

/-- THE RESULT ON A TILE: the concatenated and the split arrangements give the same tile. -/
theorem outTile_eq (adj : Vec Ideal S256x8192 .bf16) (h1b : Vec Ideal S8192x256 .bf16) (h1 : Vec Ideal S8192x256 .f32)
    (h1d : Vec Ideal S256x256 .f32) (w2 : Vec Ideal S512x256 .f32) (b1 : Vec Ideal S1x256 .f32)
    (xd : Vec Ideal S256x512 .f32) (wf : Vec Ideal S1024x256 .f32) (bf : Vec Ideal S1x256 .f32)
    (hh : ∀ i, h1b i = h1 i) :
    outTileK adj h1b (invTile adj) h1d w2 b1 (mskTile adj) xd wf bf = outTileR adj h1 h1d w2 b1 xd wf bf := by
  rw [outTileK_form, outTileR_form, h2K_eq_h2R adj h1b h1 h1d w2 b1 hh]
  simp only [shapeCast_self]
  rw [shapeCast_self h1d]
  refine congrArg (fun P : FVec Ideal S256x256 .f32 => addf P (broadcastTo S256x256 bf Cert.KernelIdeal.Gen.broadcasts_S1x256_S256x256)) ?_
  exact matmul_concat3 (p := 512) (q := 256) (s := 256) (K := 1024) (hK := rfl) _ plainK_1024 _ plainR_512 _ plainR_256 _ plainR_256 none
    xd h1d (h2R adj h1 h1d w2 b1) _ wf _ _ _
    (fun k c => ld_rows wf 0 _ k c _ (by simp <;> omega))
    (fun k c => ld_rows wf 512 _ k c _ (by simp <;> omega))
    (fun k c => ld_rows wf 768 _ k c _ (by simp <;> omega))

end Cert.Bridge

end
-- ==== Proof.Bridge.lean ====
import proofs.«170987_g2000006520504415_pallasbulk_218_5_alg».proof.Proof.Layer2

/-!
  The two closed forms are the same function of the arrays.

  Both are assembled from their 32 row tiles, and tile by tile the two arrangements agree: the first layer by
  the layer-1 tile lemma, with the reformatted copy of the features being the features themselves; then, the
  first layer's outputs being equal arrays, the result by the layer-2 tile lemma, whose inverse degree and mask
  are those of the same adjacency tile.
-/

noncomputable section

namespace Cert.Bridge

open Idealize.ShloMosaic Idealize.ShloMosaic.ValueIdx
open Cert.KernelIdeal Cert.Spec

/-- The first layer's output, all rows: the two arrangements agree. -/
theorem H1_eq (A : Vec Ideal S8192x8192 .bf16) (X : Vec Ideal S8192x512 .f32) (w1 : Vec Ideal S1024x256 .f32)
    (b0 : Vec Ideal S1x256 .f32) : H1K A (xbOf X) X w1 b0 = H1R A X w1 b0 := by
  unfold H1K H1R
  exact assemble_congr fun t => h1Tile_eq (rowsOf A t) (xbOf X) X (rowsOf X t) w1 b0 (fun _ => rfl)

/-- THE BRIDGE: the arrangement with concatenated contractions and the arrangement that adds the parts'
    contractions are the same array. -/
theorem out_eq (A : Vec Ideal S8192x8192 .bf16) (X : Vec Ideal S8192x512 .f32) (w1 : Vec Ideal S1024x256 .f32)
    (b0 : Vec Ideal S1x256 .f32) (w2 : Vec Ideal S512x256 .f32) (b1 : Vec Ideal S1x256 .f32)
    (wf : Vec Ideal S1024x256 .f32) (bf : Vec Ideal S1x256 .f32) :
    OutK A (xbOf X) X w1 b0 w2 b1 wf bf = OutR A X w1 b0 w2 b1 wf bf := by
  unfold OutK OutR
  rw [H1_eq A X w1 b0]
  exact assemble_congr fun t =>
    outTile_eq (rowsOf A t) (H1R A X w1 b0) (H1R A X w1 b0) (rowsOf (H1R A X w1 b0) t) w2 b1 (rowsOf X t) wf bf
      (fun _ => rfl)

end Cert.Bridge

end
-- ==== Proof.lean ====
/-
  The certificate of the two-layer edge convolution (mean aggregation over a dense adjacency, then a linear map of
  the concatenated features) against its reference.

  At the extended reals both programs compute, for node rows `256 t … 256 t + 255`,
  `h1 = relu(x_dst · (W0a - W0b)ᵀ + ((A · X) / max(deg, 1)) · W0bᵀ + b0) · [deg > 0]`, the same with `h1` in place of
  `X` for `h2`, and `x_dst · Wf[:, 0:512]ᵀ + h1_dst · Wf[:, 512:768]ᵀ + h2 · Wf[:, 768:1024]ᵀ + bf`. The program under
  test contracts one concatenated operand per product where the reference adds the contractions of the parts
  against the row-slices of the packed weight: a sum over `p + q` terms against the sum of its first `p` and its last
  `q` terms, equal in any commutative monoid, so no finiteness of the inputs is used. It also keeps the inverse
  degree and the isolated-node mask of each row tile from the first layer for the second, where the reference
  recomputes them from the same adjacency tile, and reads reformatted copies of `X` and `h1` in the aggregation,
  which at the extended reals are the same numbers.

  Each program's result is read off its run tile by tile (`Cert.KernelSide.value`, `Cert.RefSide.value`) as a closed
  form of the launch arguments (`Cert.Spec.OutK`, `Cert.Spec.OutR`), and the two closed forms are one function
  (`Cert.Bridge.out_eq`). The ideal pass rewrote nothing, so the idealization's conjunct is trivial.
-/
import proofs.«170987_g2000006520504415_pallasbulk_218_5_alg».proof.Defs
import proofs.«170987_g2000006520504415_pallasbulk_218_5_alg».proof.Proof.Gen.Kernel
import proofs.«170987_g2000006520504415_pallasbulk_218_5_alg».proof.Proof.Gen.Kernel.Skeleton
import proofs.«170987_g2000006520504415_pallasbulk_218_5_alg».proof.Proof.Gen.Kernel.Launch
import proofs.«170987_g2000006520504415_pallasbulk_218_5_alg».proof.Proof.Gen.Kernel.Points
import proofs.«170987_g2000006520504415_pallasbulk_218_5_alg».proof.Proof.Gen.Kernel.Frame
import proofs.«170987_g2000006520504415_pallasbulk_218_5_alg».proof.Proof.Gen.KernelIdeal
import proofs.«170987_g2000006520504415_pallasbulk_218_5_alg».proof.Proof.Gen.KernelIdeal.Skeleton
import proofs.«170987_g2000006520504415_pallasbulk_218_5_alg».proof.Proof.Gen.KernelIdeal.Launch
import proofs.«170987_g2000006520504415_pallasbulk_218_5_alg».proof.Proof.Gen.KernelIdeal.Points
import proofs.«170987_g2000006520504415_pallasbulk_218_5_alg».proof.Proof.Gen.KernelIdeal.Frame
import proofs.«170987_g2000006520504415_pallasbulk_218_5_alg».proof.Proof.Gen.ReferenceIdeal
import proofs.«170987_g2000006520504415_pallasbulk_218_5_alg».proof.Proof.Gen.ReferenceIdeal.Skeleton
import proofs.«170987_g2000006520504415_pallasbulk_218_5_alg».proof.Proof.Gen.ReferenceIdeal.Launch
import proofs.«170987_g2000006520504415_pallasbulk_218_5_alg».proof.Proof.Gen.ReferenceIdeal.Points
import proofs.«170987_g2000006520504415_pallasbulk_218_5_alg».proof.Proof.Gen.ReferenceIdeal.Frame
import proofs.«170987_g2000006520504415_pallasbulk_218_5_alg».proof.Proof.Gen.Pre_finite_inputs
import Idealize.ShloMosaic.Adequacy
import Idealize.ShloMosaic.Init
import proofs.«170987_g2000006520504415_pallasbulk_218_5_alg».proof.Proof.KernelValue
import proofs.«170987_g2000006520504415_pallasbulk_218_5_alg».proof.Proof.RefResult
import proofs.«170987_g2000006520504415_pallasbulk_218_5_alg».proof.Proof.Bridge

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories agreeing on the arguments both programs end with the result array at the closed form of the
    arguments: `OutK` on one side, `OutR` of the same arrays on the other, one function. -/
theorem algebraic : Cert.algebraic_KernelIdeal_ReferenceIdeal := by
  intro m ρ m' ρ' _ hagree
  refine ⟨_, Cert.KernelSide.value m ρ, ?_⟩
  refine (θ_run Cert.ReferenceIdeal.defs _ _).mono (fun r h c => ⟨(h c).1.trans ?_, (h c).2⟩)
    (Cert.RefSide.value m' ρ')
  obtain ⟨e0, e1, e2, e3, e4, e5, e6, e7⟩ := hagree c
  rw [e0, e1, e2, e3, e4, e5, e6, e7]
  exact (Cert.Bridge.out_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
